-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S600000 : Shape := ⟨1, ![600000]⟩
abbrev S512x128 : Shape := ⟨2, ![512, 128]⟩
abbrev S128 : Shape := ⟨1, ![128]⟩
abbrev S128x512 : Shape := ⟨2, ![128, 512]⟩
abbrev S512 : Shape := ⟨1, ![512]⟩
abbrev S128x128 : Shape := ⟨2, ![128, 128]⟩
abbrev S256x40 : Shape := ⟨2, ![256, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S600000 : S_.BroadcastsInDim S600000 (![] : Fin 0 → Fin S600000.rank)
  reducesTo_S600000_S_d0 : S600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S40 .f32) (main_v48 : IVec S_ 1) (main_v49 : FVec F S256x40 .f32) (main_v50 : FVec F S256x40 .f32) : IVec S_ 1 :=
  let main_v51 : IVec S256x40 1 := cmpf .olt main_v49 main_v50
  let main_c_19 : IVec S_ 1 := constantI S_ 1 1#1
  let main_v52 : IVec S_ 1 := (fun x v => Host.reduce IntOp.andi x v reducesTo_S256x40_S_d0_1 h_S_) main_v51 main_c_19
  let main_v53 : IVec S_ 1 := andi main_v48 main_v52
  let main_v54 : FVec F S40 .f32 := Host.absf main_arg13
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg9 : FVec F S128 .f32) (main_arg10 : FVec F S512x128 .f32) (main_arg11 : FVec F S128 .f32) (main_arg12 : FVec F S256x40 .f32) (main_arg13 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x128 .f32 := Host.absf main_arg10
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x40 .f32 := Host.absf main_arg12
  let main_cst_18 : FVec F S_ .f32 := constant S_ .f32 0x7F800000#32
  let main_v50 : FVec F S256x40 .f32 := broadcastInDim S256x40 ![] bcast_S_S256x40 main_cst_18
  fn_part3 (F := F) main_arg13 main_v48 main_v49 main_v50

def fn_part1 {F : FTy → Type} [FloatOps F] (main_arg6 : FVec F S128x512 .f32) (main_arg7 : FVec F S512 .f32) (main_arg8 : FVec F S128x128 .f32) (main_arg9 : FVec F S128 .f32) (main_arg10 : FVec F S512x128 .f32) (main_arg11 : FVec F S128 .f32) (main_arg12 : FVec F S256x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg6
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x512 .f32) (main_arg1 : IVec S600000 32) (main_arg2 : IVec S600000 32) (main_arg3 : FVec F S600000 .f32) (main_arg4 : FVec F S512x128 .f32) (main_arg5 : FVec F S128 .f32) (main_arg6 : FVec F S128x512 .f32) (main_arg7 : FVec F S512 .f32) (main_arg8 : FVec F S128x128 .f32) (main_arg9 : FVec F S128 .f32) (main_arg10 : FVec F S512x128 .f32) (main_arg11 : FVec F S128 .f32) (main_arg12 : FVec F S256x40 .f32) (main_arg13 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x512 : Shape := ⟨2, ![50000, 512]⟩
abbrev S600000 : Shape := ⟨1, ![600000]⟩
abbrev S512x128 : Shape := ⟨2, ![512, 128]⟩
abbrev S128 : Shape := ⟨1, ![128]⟩
abbrev S128x512 : Shape := ⟨2, ![128, 512]⟩
abbrev S512 : Shape := ⟨1, ![512]⟩
abbrev S128x128 : Shape := ⟨2, ![128, 128]⟩
abbrev S256x40 : Shape := ⟨2, ![256, 40]⟩
abbrev S40 : Shape := ⟨1, ![40]⟩
abbrev S1x128 : Shape := ⟨2, ![1, 128]⟩
abbrev S1x512 : Shape := ⟨2, ![1, 512]⟩
abbrev S50000x256 : Shape := ⟨2, ![50000, 256]⟩
abbrev S2000x512 : Shape := ⟨2, ![2000, 512]⟩
abbrev S2000x256 : Shape := ⟨2, ![2000, 256]⟩
abbrev S2000x128 : Shape := ⟨2, ![2000, 128]⟩
abbrev S600000x1 : Shape := ⟨2, ![600000, 1]⟩
abbrev S_ : Shape := ⟨0, ![]⟩
abbrev S600000x256 : Shape := ⟨2, ![600000, 256]⟩
abbrev S128x40 : Shape := ⟨2, ![128, 40]⟩
abbrev S50000x40 : Shape := ⟨2, ![50000, 40]⟩
abbrev S2000x40 : Shape := ⟨2, ![2000, 40]⟩
abbrev S600000x40 : Shape := ⟨2, ![600000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 61
  | .vmem => 25
  | .smem => 0
  | _ => 0

abbrev bufTy : (tb : Table) → Fin (tcTables nBuf tb) → BufTy
  | .hbm, ⟨0, _⟩ => ⟨S50000x512, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S512x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S128x128, .f32⟩
  | .hbm, ⟨9, _⟩ => ⟨S128, .f32⟩
  | .hbm, ⟨10, _⟩ => ⟨S512x128, .f32⟩
  | .hbm, ⟨11, _⟩ => ⟨S128, .f32⟩
  | .hbm, ⟨12, _⟩ => ⟨S256x40, .f32⟩
  | .hbm, ⟨13, _⟩ => ⟨S40, .f32⟩
  | .hbm, ⟨14, _⟩ => ⟨S128x128, .bf16⟩
  | .hbm, ⟨15, _⟩ => ⟨S512x128, .bf16⟩
  | .hbm, ⟨16, _⟩ => ⟨S1x128, .f32⟩
  | .hbm, ⟨17, _⟩ => ⟨S1x512, .f32⟩
  | .hbm, ⟨18, _⟩ => ⟨S50000x512, .f32⟩
  | .hbm, ⟨19, _⟩ => ⟨S50000x256, .f32⟩
  | .hbm, ⟨20, _⟩ => ⟨S600000x1, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x256, .f32⟩
  | .hbm, ⟨30, _⟩ => ⟨S600000x256, .f32⟩
  | .hbm, ⟨31, _⟩ => ⟨S600000x256, .f32⟩
  | .hbm, ⟨32, _⟩ => ⟨S_, .f32⟩
  | .hbm, ⟨33, _⟩ => ⟨S50000x256, .f32⟩
  | .hbm, ⟨34, _⟩ => ⟨S600000x1, .i32⟩
  | .hbm, ⟨35, _⟩ => ⟨S50000x256, .f32⟩
  | .hbm, ⟨36, _⟩ => ⟨S128x40, .f32⟩
  | .hbm, ⟨37, _⟩ => ⟨S128x40, .bf16⟩
  | .hbm, ⟨38, _⟩ => ⟨S128x40, .f32⟩
  | .hbm, ⟨39, _⟩ => ⟨S128x40, .bf16⟩
  | .hbm, ⟨40, _⟩ => ⟨S1x128, .f32⟩
  | .hbm, ⟨41, _⟩ => ⟨S1x128, .f32⟩
  | .hbm, ⟨42, _⟩ => ⟨S50000x40, .f32⟩
  | .hbm, ⟨43, _⟩ => ⟨S600000x1, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x40, .f32⟩
  | .hbm, ⟨53, _⟩ => ⟨S600000x40, .f32⟩
  | .hbm, ⟨54, _⟩ => ⟨S600000x40, .f32⟩
  | .hbm, ⟨55, _⟩ => ⟨S_, .f32⟩
  | .hbm, ⟨56, _⟩ => ⟨S50000x40, .f32⟩
  | .hbm, ⟨57, _⟩ => ⟨S600000x1, .i32⟩
  | .hbm, ⟨58, _⟩ => ⟨S50000x40, .f32⟩
  | .hbm, ⟨59, _⟩ => ⟨S1x40, .f32⟩
  | .hbm, ⟨60, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S128x512, .f32⟩
  | .local _ .vmem, ⟨5, _⟩ => ⟨S1x512, .f32⟩
  | .local _ .vmem, ⟨6, _⟩ => ⟨S128x128, .bf16⟩
  | .local _ .vmem, ⟨7, _⟩ => ⟨S512x128, .bf16⟩
  | .local _ .vmem, ⟨8, _⟩ => ⟨S2000x512, .f32⟩
  | .local _ .vmem, ⟨9, _⟩ => ⟨S2000x512, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S1x128, .f32⟩
  | .local _ .vmem, ⟨15, _⟩ => ⟨S1x128, .f32⟩
  | .local _ .vmem, ⟨16, _⟩ => ⟨S128x40, .bf16⟩
  | .local _ .vmem, ⟨17, _⟩ => ⟨S128x40, .bf16⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S1x40, .f32⟩
  | .local _ .vmem, ⟨23, _⟩ => ⟨S2000x40, .f32⟩
  | .local _ .vmem, ⟨24, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_1 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  shapeCasts_S128_S1x128 : S128.ShapeCasts S1x128
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x256_S2000x128_0_0 : ∀ a, (![0, 0] : Fin 2 → Nat) a + S2000x128.size a ≤ S2000x256.size a
  h_S2000x128 : 0 < S2000x128.numel
  inb_S2000x256_S2000x128_0_128 : ∀ a, (![0, 128] : Fin 2 → Nat) a + S2000x128.size a ≤ S2000x256.size a
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x256_0_1 : S600000x1.BroadcastsInDim S600000x256 (![0, 1] : Fin 2 → Fin S600000x256.rank)
  bcast_S_S50000x256 : S_.BroadcastsInDim S50000x256 (![] : Fin 0 → Fin S50000x256.rank)
  slices_S256x40_S128x40_0_0 : S256x40.Slices ![0, 0] S128x40
  slices_S256x40_S128x40_128_0 : S256x40.Slices ![128, 0] S128x40
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  slices_S2000x256_o0_0_S2000x128 : S2000x256.Slices ![0, 0] S2000x128
  slices_S2000x256_o0_128_S2000x128 : S2000x256.Slices ![0, 128] S2000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S2000x40_S2000x40_0_0 : ∀ a, (![0, 0] : Fin 2 → Nat) a + S2000x40.size a ≤ S2000x40.size a
  h_S2000x40 : 0 < S2000x40.numel
  bcast_S600000x1_S600000x40_0_1 : S600000x1.BroadcastsInDim S600000x40 (![0, 1] : Fin 2 → Fin S600000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x512_S512x128_S2000x128_1_0_0_1_n_n_wf : DotDims.WF S2000x512 S512x128 S2000x128 [1] [0] [0] [1] [] []
  dot_S2000x128_S128x512_S2000x512_1_0_0_1_n_n_wf : DotDims.WF S2000x128 S128x512 S2000x512 [1] [0] [0] [1] [] []
  dot_S2000x128_S128x128_S2000x128_1_0_0_1_n_n_wf : DotDims.WF S2000x128 S128x128 S2000x128 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x128_S128x40_S2000x40_1_0_0_1_n_n_wf : DotDims.WF S2000x128 S128x40 S2000x40 [1] [0] [0] [1] [] []
  gather_S50000x40_S600000x1_S600000x40_1_0_n_n_0_1_140_wf : GatherDims.WF S50000x40 S600000x1 S600000x40 [1] [0] [] [0] [] 1 ![1, 40]
  scatter_S50000x40_S600000x1_S600000x40_1_0_0_1_wf : ScatterDims.WF S50000x40 S600000x1 S600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .bf16 = 32 ∨ (Rect.block (s := S512x128) S512x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x512.size a ≤ S50000x512.size a
  hwx0_7 : ∀ i : grid0.Coords, EltTy.bits .f32 = 32 ∨ (Rect.block (s := S50000x512) S2000x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .bf16 = 32 ∨ (Rect.block (s := S128x40) S128x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .bf16 = 32 ∨ (Rect.block (s := S128x40) S128x40.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S50000x40.size a
  hwx1_5 : ∀ i : grid1.Coords, EltTy.bits .f32 = 32 ∨ (Rect.block (s := S50000x40) S2000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S600000x1_S600000x40_1_0_n_n_0_1_140 : GatherDims S50000x40 S600000x1 S600000x40 where
  offsetDims := [1]
  collapsedSliceDims := [0]
  operandBatchingDims := []
  startIndicesBatchingDims := []
  startIndexMap := [0]
  indexVectorDim := 1
  sliceSizes := ![1, 40]
  wf := gather_S50000x40_S600000x1_S600000x40_1_0_n_n_0_1_140_wf
def scatter_S50000x40_S600000x1_S600000x40_1_0_0_1 : ScatterDims S50000x40 S600000x1 S600000x40 where
  updateWindowDims := [1]
  insertedWindowDims := [0]
  scatterDimsToOperandDims := [0]
  indexVectorDim := 1
  wf := scatter_S50000x40_S600000x1_S600000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S2000x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S600000 : Shape := ⟨1, ![600000]⟩
abbrev S512x128 : Shape := ⟨2, ![512, 128]⟩
abbrev S128 : Shape := ⟨1, ![128]⟩
abbrev S128x512 : Shape := ⟨2, ![128, 512]⟩
abbrev S512 : Shape := ⟨1, ![512]⟩
abbrev S128x128 : Shape := ⟨2, ![128, 128]⟩
abbrev S256x40 : Shape := ⟨2, ![256, 40]⟩
abbrev S40 : Shape := ⟨1, ![40]⟩
abbrev S50000x128 : Shape := ⟨2, ![50000, 128]⟩
abbrev S1x128 : Shape := ⟨2, ![1, 128]⟩
abbrev S1x512 : Shape := ⟨2, ![1, 512]⟩
abbrev S600000x1 : Shape := ⟨2, ![600000, 1]⟩
abbrev S_ : Shape := ⟨0, ![]⟩
abbrev S600000x128 : Shape := ⟨2, ![600000, 128]⟩
abbrev S50000x256 : Shape := ⟨2, ![50000, 256]⟩
abbrev S50000x40 : Shape := ⟨2, ![50000, 40]⟩
abbrev S600000x40 : Shape := ⟨2, ![600000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S512x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S128x128, .f32⟩
  | .hbm, ⟨9, _⟩ => ⟨S128, .f32⟩
  | .hbm, ⟨10, _⟩ => ⟨S512x128, .f32⟩
  | .hbm, ⟨11, _⟩ => ⟨S128, .f32⟩
  | .hbm, ⟨12, _⟩ => ⟨S256x40, .f32⟩
  | .hbm, ⟨13, _⟩ => ⟨S40, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S50000x512, .f32⟩
  | .hbm, ⟨19, _⟩ => ⟨S1x512, .f32⟩
  | .hbm, ⟨20, _⟩ => ⟨S50000x512, .f32⟩
  | .hbm, ⟨21, _⟩ => ⟨S50000x512, .f32⟩
  | .hbm, ⟨22, _⟩ => ⟨S50000x128, .f32⟩
  | .hbm, ⟨23, _⟩ => ⟨S600000x1, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S600000x1, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .i1⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x40, .f32⟩
  | .hbm, ⟨72, _⟩ => ⟨S600000x1, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x40, .f32⟩
  | .hbm, ⟨82, _⟩ => ⟨S600000x40, .f32⟩
  | .hbm, ⟨83, _⟩ => ⟨S600000x40, .f32⟩
  | .hbm, ⟨84, _⟩ => ⟨S_, .f32⟩
  | .hbm, ⟨85, _⟩ => ⟨S50000x40, .f32⟩
  | .hbm, ⟨86, _⟩ => ⟨S600000x1, .i32⟩
  | .hbm, ⟨87, _⟩ => ⟨S50000x40, .f32⟩
  | .hbm, ⟨88, _⟩ => ⟨S1x40, .f32⟩
  | .hbm, ⟨89, _⟩ => ⟨S50000x40, .f32⟩
  | .hbm, ⟨90, _⟩ => ⟨S50000x40, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x40, .f32⟩
  | .hbm, ⟨98, _⟩ => ⟨S50000x40, .f32⟩
  | .hbm, ⟨99, _⟩ => ⟨S50000x40, .f32⟩
  | .hbm, ⟨100, _⟩ => ⟨S_, .f32⟩
  | .hbm, ⟨101, _⟩ => ⟨S50000, .f32⟩
  | .hbm, ⟨102, _⟩ => ⟨S50000x1, .f32⟩
  | .hbm, ⟨103, _⟩ => ⟨S50000x1, .f32⟩
  | .hbm, ⟨104, _⟩ => ⟨S50000x40, .f32⟩
  | .hbm, ⟨105, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_c_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_6 : Ref sig .tc := ⟨.hbm, 73, rfl⟩
abbrev main_v51 : Ref sig .tc := ⟨.hbm, 74, rfl⟩
abbrev main_v52 : Ref sig .tc := ⟨.hbm, 75, rfl⟩
abbrev main_c_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call1_cst : Ref sig .tc := ⟨.hbm, 91, rfl⟩
abbrev main_call1_v0 : Ref sig .tc := ⟨.hbm, 92, rfl⟩
abbrev main_call1_cst_0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_cst_1 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  bcast_S600000x1_S600000x40_0_1 : S600000x1.BroadcastsInDim S600000x40 (![0, 1] : Fin 2 → Fin S600000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x128_S50000x128_1_0_0_1_n_n_wf : DotDims.WF S50000x512 S512x128 S50000x128 [1] [0] [0] [1] [] []
  dot_S50000x128_S128x512_S50000x512_1_0_0_1_n_n_wf : DotDims.WF S50000x128 S128x512 S50000x512 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x256_S256x40_S50000x40_1_0_0_1_n_n_wf : DotDims.WF S50000x256 S256x40 S50000x40 [1] [0] [0] [1] [] []
  gather_S50000x40_S600000x1_S600000x40_1_0_n_n_0_1_140_wf : GatherDims.WF S50000x40 S600000x1 S600000x40 [1] [0] [] [0] [] 1 ![1, 40]
  scatter_S50000x40_S600000x1_S600000x40_1_0_0_1_wf : ScatterDims.WF S50000x40 S600000x1 S600000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S600000x1_S600000x40_1_0_n_n_0_1_140 : GatherDims S50000x40 S600000x1 S600000x40 where
  offsetDims := [1]
  collapsedSliceDims := [0]
  operandBatchingDims := []
  startIndicesBatchingDims := []
  startIndexMap := [0]
  indexVectorDim := 1
  sliceSizes := ![1, 40]
  wf := gather_S50000x40_S600000x1_S600000x40_1_0_n_n_0_1_140_wf
def scatter_S50000x40_S600000x1_S600000x40_1_0_0_1 : ScatterDims S50000x40 S600000x1 S600000x40 where
  updateWindowDims := [1]
  insertedWindowDims := [0]
  scatterDimsToOperandDims := [0]
  indexVectorDim := 1
  wf := scatter_S50000x40_S600000x1_S600000x40_1_0_0_1_wf

class Facts : Prop extends Facts₀ where

variable [Facts]
-- ==== Proof.KernelRun.lean ====
/-
  The idealized kernel program's run with its two results named: every weakly fair execution of the program ends, no
  step faulting, with the log-softmax result and the reconstruction result holding what the last boundary of the run
  holds at their buffers, and the fourteen argument arrays as launched. The run is the program's six segments in order
  — a stretch of host operations, then a region, three times — each entered from the contents the one before leaves.
-/
import proofs.«138230_j33535104647614_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with both results read at the last boundary's contents and every argument unchanged. -/
theorem run_results : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_v4_0) = W6 m ρ c (Proc.devRef .tc main_v4_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       h c _ (mem_uc main_v4_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Hand

end
-- ==== Proof.LibColumns.lean ====
/-
  Rows and columns: two facts about arrays whose columns are laid side by side.

  All arrays are rank 2. An update array of `E` rows is scattered into an array of `N` rows by a column `I` of
  row indices (one signed integer per update row, `I (e, 0)`): update element `(e, g)` is added at `(I e, g)`,
  and dropped when `I e` is not a row of the target. A gather reads the other way: result element `(e, g)` is
  the operand at `(J e, g)`, with `J e` brought into `[0, N − 1]`. Both act on each column on its own. Hence:

  * scattering (with addition, on the extended reals) two arrays laid side by side and then cutting the result
    back into its two column ranges gives the two scatters of the two arrays;
  * gathering rows of two arrays laid side by side and then cutting gives the two gathers.

  The dimension numbers are the records `rowScatter` and `rowGather` below, whose side conditions are a
  parameter: any record with the same lists is one of them by `rfl`.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.Pipeline.Value

noncomputable section

open scoped BigOperators

namespace Cert.LibColumns

open Idealize.ShloMosaic Idealize.ShloMosaic.ValueIdx

/-! ## Scattering rows -/

/-- The dimension numbers of a row scatter: updates `[E, C]` go into an operand `[N, C]` at the rows named by
    scatter indices `[E, 1]` — the updates' axis 1 is the window axis, the operand's axis 0 is inserted and is the
    one the index names, the index vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (I : IVec ⟨2, ![E, 1]⟩ w)

/-- On the row axis the window of update `(e, g)` starts at the signed value of the index `I (e, 0)`. -/
theorem rowScatter_start_row (e : Fin E) (g : Fin C) :
    (rowScatter N E C wf).start (ix2 e g) I 0 = (I (ix2 e (0 : Fin 1))).toInt := by
  unfold ScatterDims.start
  rw [dif_pos (show (0 : Fin 2) ∈ (rowScatter N E C wf).scatterDimsToOperandDims from List.mem_singleton.mpr rfl)]
  congr 2
  funext b
  refine Fin.ext ?_
  match b with
  | ⟨0, _⟩ => rfl
  | ⟨1, _⟩ => rfl

/-- On the column axis every window starts at 0. -/
theorem rowScatter_start_col (e : Fin E) (g : Fin C) :
    (rowScatter N E C wf).start (ix2 e g) I 1 = 0 := by
  unfold ScatterDims.start
  rw [dif_neg (show (1 : Fin 2) ∉ ([0] : List (Fin 2)) by simp)]

/-- The row axis is inserted: the window coordinate there is 0. -/
theorem rowScatter_window_row (e : Fin E) (g : Fin C) :
    (rowScatter N E C wf).window (ix2 e g) 0 = 0 := by
  unfold ScatterDims.window
  rw [dif_neg (show (0 : Fin 2) ∉ Shape.kept ⟨2, ![N, C]⟩ [0] by simp [Shape.kept])]

/-- On the column axis the window coordinate of update `(e, g)` is `g`. -/
theorem rowScatter_window_col (e : Fin E) (g : Fin C) :
    (rowScatter N E C wf).window (ix2 e g) 1 = g.val := by
  unfold ScatterDims.window
  rw [dif_pos (show (1 : Fin 2) ∈ Shape.kept ⟨2, ![N, C]⟩ [0] by simp [Shape.kept])]
  rfl

/-- Update `(e, g)` lands on `(n, f)` exactly when its index is `n` and `g = f`. -/
theorem rowScatter_resultIdx?_eq_some_iff (e : Fin E) (g : Fin C) (n : Fin N) (f : Fin C) :
    (rowScatter N E C wf).resultIdx? (ix2 e g) I = some (ix2 n f)
      ↔ (I (ix2 e (0 : Fin 1))).toInt = (n.val : Int) ∧ g = f := by
  have hs0 := rowScatter_start_row wf I e g
  have hs1 := rowScatter_start_col wf I e g
  have hw0 := rowScatter_window_row wf e g
  have hw1 := rowScatter_window_col wf e g
  unfold ScatterDims.resultIdx?
  by_cases h : ∀ a : Fin 2, 0 ≤ (rowScatter N E C wf).start (ix2 e g) I a + ((rowScatter N E C wf).window (ix2 e g) a : Int)
      ∧ (rowScatter N E C wf).start (ix2 e g) I a + ((rowScatter N E C wf).window (ix2 e g) a : Int)
        < ((⟨2, ![N, C]⟩ : Shape).size a : Int)
  · rw [dif_pos h]
    have h0 := h 0
    rw [hs0, hw0] at h0
    constructor
    · intro hh
      have hh' := Option.some.inj hh
      have e0 := congrArg (fun k => (k 0).val) hh'
      have e1 := congrArg (fun k => (k 1).val) hh'
      simp only [hs0, hw0, hs1, hw1] at e0 e1
      refine ⟨?_, Fin.ext ?_⟩
      · have : ((I (ix2 e (0 : Fin 1))).toInt + ((0 : Nat) : Int)).toNat = n.val := e0
        omega
      · have : ((0 : Int) + (g.val : Int)).toNat = f.val := e1
        omega
    · rintro ⟨ht, rfl⟩
      congr 1
      funext a
      refine Fin.ext ?_
      match a with
      | ⟨0, _⟩ =>
        show ((rowScatter N E C wf).start (ix2 e g) I 0 + ((rowScatter N E C wf).window (ix2 e g) 0 : Int)).toNat = n.val
        rw [hs0, hw0]; omega
      | ⟨1, _⟩ =>
        show ((rowScatter N E C wf).start (ix2 e g) I 1 + ((rowScatter N E C wf).window (ix2 e g) 1 : Int)).toNat = g.val
        rw [hs1, hw1]; omega
  · rw [dif_neg h]
    constructor
    · intro hh; exact absurd hh (by simp)
    · rintro ⟨ht, rfl⟩
      exfalso
      apply h
      intro a
      match a with
      | ⟨0, _⟩ =>
        show 0 ≤ (rowScatter N E C wf).start (ix2 e g) I 0 + ((rowScatter N E C wf).window (ix2 e g) 0 : Int)
          ∧ (rowScatter N E C wf).start (ix2 e g) I 0 + ((rowScatter N E C wf).window (ix2 e g) 0 : Int) < (N : Int)
        rw [hs0, hw0]; have := n.isLt; omega
      | ⟨1, _⟩ =>
        show 0 ≤ (rowScatter N E C wf).start (ix2 e g) I 1 + ((rowScatter N E C wf).window (ix2 e g) 1 : Int)
          ∧ (rowScatter N E C wf).start (ix2 e g) I 1 + ((rowScatter N E C wf).window (ix2 e g) 1 : Int) < (C : Int)
        rw [hs1, hw1]; have := g.isLt; omega

/-- THE ROW SCATTER-ADD AT `(n, f)`: the operand's element plus the sum, over the update rows `e` whose index is
    `n`, of the update's element `(e, f)`. -/
theorem hostScatterAdd_rows_apply (X : (⟨2, ![N, C]⟩ : Shape).Idx → EReal) (U : (⟨2, ![E, C]⟩ : Shape).Idx → EReal)
    (n : Fin N) (f : Fin C) :
    Ideal.hostScatterAdd (rowScatter N E C wf) X I U (ix2 n f)
      = X (ix2 n f) + ∑ e : Fin E, if (I (ix2 e (0 : Fin 1))).toInt = (n.val : Int) then U (ix2 e f) else 0 := by
  unfold Ideal.hostScatterAdd
  congr 1
  rw [Finset.sum_filter, sum_idx2]
  refine Finset.sum_congr rfl fun e _ => ?_
  simp only [rowScatter_resultIdx?_eq_some_iff]
  by_cases ht : (I (ix2 e (0 : Fin 1))).toInt = (n.val : Int)
  · simp [ht]
  · simp [ht]

/-- The same for the host operation at the ideal instance, at any float format. -/
theorem scatterAdd_rows_apply {φ : FTy} (X : FVec Ideal ⟨2, ![N, C]⟩ φ) (U : FVec Ideal ⟨2, ![E, C]⟩ φ)
    (n : Fin N) (f : Fin C) :
    Host.scatterAdd (rowScatter N E C wf) X I U (ix2 n f)
      = X (ix2 n f) + ∑ e : Fin E, if (I (ix2 e (0 : Fin 1))).toInt = (n.val : Int) then U (ix2 e f) else 0 :=
  hostScatterAdd_rows_apply wf I X U n f

end Scatter

/-! ## A scatter-add of two arrays side by side, cut back into its column ranges -/

section ScatterColumns
variable {N E C D T w : Nat} {φ : FTy}

/-- The first `C` columns of the scatter-add of `[A | B]` (columns `C` and `D` wide) into `X` are the scatter-add
    of `A` into the first `C` columns of `X`: the sum for `(n, f)`, `f < C`, runs over the update rows whose
    index is `n` and reads column `f` of `[A | B]`, which is column `f` of `A`. -/
theorem slice_scatterAdd_concat_left
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (hc : Shape.Concatenates [(⟨2, ![E, C]⟩ : Shape), ⟨2, ![E, D]⟩] ⟨2, ![E, T]⟩ 1)
    (hs : (⟨2, ![N, T]⟩ : Shape).Slices ![0, 0] ⟨2, ![N, C]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, C]⟩ ![0, 0]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E C wfC) (extractStridedSlice ⟨2, ![N, C]⟩ ![0, 0] X hs) I A := by
  funext i
  obtain ⟨n, f, rfl⟩ : ∃ (n : Fin N) (f : Fin C), i = ix2 n f := ⟨i 0, i 1, eq_ix2 i⟩
  have hCT : C ≤ T := by have := hs.2 1; simpa using this
  have hf : f.val < T := lt_of_lt_of_le f.isLt hCT
  have hk : ∀ a : Fin 2, ((ix2 n (⟨f.val, hf⟩ : Fin T) : (⟨2, ![N, T]⟩ : Shape).Idx) a).val
      = (![0, 0] : Fin 2 → Nat) a + ((ix2 n f : (⟨2, ![N, C]⟩ : Shape).Idx) (a.cast hs.1.symm)).val := fun a => by
    match a with
    | ⟨0, _⟩ => exact (Nat.zero_add _).symm
    | ⟨1, _⟩ => exact (Nat.zero_add _).symm
  rw [extractStridedSlice_apply ![0, 0] _ hs (ix2 n f) (ix2 n (⟨f.val, hf⟩ : Fin T)) hk,
    scatterAdd_rows_apply, scatterAdd_rows_apply,
    extractStridedSlice_apply ![0, 0] X hs (ix2 n f) (ix2 n (⟨f.val, hf⟩ : Fin T)) hk]
  congr 1
  refine Finset.sum_congr rfl fun e _ => ?_
  rw [concatenate_pair_apply_left (t := ⟨2, ![E, T]⟩) (s₁ := ⟨2, ![E, C]⟩) (s₂ := ⟨2, ![E, D]⟩) (1 : Fin 2) A B hc
    (ix2 e (⟨f.val, hf⟩ : Fin T)) rfl (ix2 e f) (fun b => by
      match b with
      | ⟨0, _⟩ => rfl
      | ⟨1, _⟩ => rfl)]

/-- The `D` columns from column `C` on of the scatter-add of `[A | B]` into `X` are the scatter-add of `B` into
    those columns of `X`: column `C + f` of `[A | B]` is column `f` of `B`. -/
theorem slice_scatterAdd_concat_right
    (wfT : ScatterDims.WF ⟨2, ![N, T]⟩ ⟨2, ![E, 1]⟩ ⟨2, ![E, T]⟩ [1] [0] [0] 1)
    (wfD : ScatterDims.WF ⟨2, ![N, D]⟩ ⟨2, ![E, 1]⟩ ⟨2, ![E, D]⟩ [1] [0] [0] 1)
    (hc : Shape.Concatenates [(⟨2, ![E, C]⟩ : Shape), ⟨2, ![E, D]⟩] ⟨2, ![E, T]⟩ 1)
    (hs : (⟨2, ![N, T]⟩ : Shape).Slices ![0, C] ⟨2, ![N, D]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, D]⟩ ![0, C]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E D wfD) (extractStridedSlice ⟨2, ![N, D]⟩ ![0, C] X hs) I B := by
  funext i
  obtain ⟨n, f, rfl⟩ : ∃ (n : Fin N) (f : Fin D), i = ix2 n f := ⟨i 0, i 1, eq_ix2 i⟩
  have hCT : C + D ≤ T := by have := hs.2 1; simpa using this
  have hf : C + f.val < T := by have := f.isLt; omega
  have hk : ∀ a : Fin 2, ((ix2 n (⟨C + f.val, hf⟩ : Fin T) : (⟨2, ![N, T]⟩ : Shape).Idx) a).val
      = (![0, C] : Fin 2 → Nat) a + ((ix2 n f : (⟨2, ![N, D]⟩ : Shape).Idx) (a.cast hs.1.symm)).val := fun a => by
    match a with
    | ⟨0, _⟩ => exact (Nat.zero_add _).symm
    | ⟨1, _⟩ => rfl
  rw [extractStridedSlice_apply ![0, C] _ hs (ix2 n f) (ix2 n (⟨C + f.val, hf⟩ : Fin T)) hk,
    scatterAdd_rows_apply, scatterAdd_rows_apply,
    extractStridedSlice_apply ![0, C] X hs (ix2 n f) (ix2 n (⟨C + f.val, hf⟩ : Fin T)) hk]
  congr 1
  refine Finset.sum_congr rfl fun e _ => ?_
  rw [concatenate_pair_apply_right (t := ⟨2, ![E, T]⟩) (s₁ := ⟨2, ![E, C]⟩) (s₂ := ⟨2, ![E, D]⟩) (1 : Fin 2) A B hc
    (ix2 e (⟨C + f.val, hf⟩ : Fin T)) rfl rfl (ix2 e f) (fun b hb => by
      match b with
      | ⟨0, _⟩ => rfl
      | ⟨1, _⟩ => exact absurd rfl hb) (Nat.add_comm _ _)]

/-- A block cut out of a scalar spread over a whole array is the scalar spread over the block (the all-zero
    array a scatter-add starts from is of this form). -/
theorem extractStridedSlice_broadcastInDim_scalar {α : Type} {s t : Shape} (off : Fin s.rank → Nat) (hs : s.Slices off t)
    (dims : Fin (⟨0, ![]⟩ : Shape).rank → Fin s.rank) (dims' : Fin (⟨0, ![]⟩ : Shape).rank → Fin t.rank)
    (hb : (⟨0, ![]⟩ : Shape).BroadcastsInDim s dims) (hb' : (⟨0, ![]⟩ : Shape).BroadcastsInDim t dims')
    (z : (⟨0, ![]⟩ : Shape).Idx → α) :
    extractStridedSlice t off (broadcastInDim s dims hb z) hs = broadcastInDim t dims' hb' z := by
  funext j
  unfold extractStridedSlice broadcastInDim
  exact congrArg z (funext fun a => a.elim0)

end ScatterColumns

/-! ## Gathering rows -/

/-- The dimension numbers of a row gather: result `[E, C]` reads an operand `[N, C]` at the rows named by start
    indices `[E, 1]` — the result's axis 1 is the offset axis, the operand's axis 0 is collapsed and is the one the
    index names, slices are one row of `C` columns, the index vector lies along axis 1 of the indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}
  (wf : GatherDims.WF ⟨2, ![N, C]⟩ ⟨2, ![E, 1]⟩ ⟨2, ![E, C]⟩ [1] [0] [] [0] [] 1 ![1, C])
  (J : IVec ⟨2, ![E, 1]⟩ w)

/-- The row result row `e` reads: the start index `J (e, 0)` as a signed integer, brought into `[0, N − 1]`. -/
def gatherRow (hN : 0 < N) (e : Fin E) : Fin N :=
  ⟨min (J (ix2 e (0 : Fin 1))).toInt.toNat (N - 1), by omega⟩

/-- The operand index of result `(e, f)` is `(gatherRow e, f)`. -/
theorem rowGather_operandIdx (hN : 0 < N) (e : Fin E) (f : Fin C) :
    (rowGather N E C wf).operandIdx (ix2 e f) J = ix2 (gatherRow J hN e) f := by
  funext a
  refine Fin.ext ?_
  match a with
  | ⟨0, _⟩ =>
    show (rowGather N E C wf).start (ix2 e f) J 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) J 1 + (rowGather N E C wf).batchCoord (ix2 e f) 1
      + (rowGather N E C wf).offCoord (ix2 e f) 1 = f.val
    rw [GatherDims.batchCoord_eq_zero _ _ _ List.not_mem_nil]
    have hst : (rowGather N E C wf).start (ix2 e f) J 1 = 0 := by
      unfold GatherDims.start
      rw [dif_neg (show (1 : Fin 2) ∉ ([0] : List (Fin 2)) by simp)]
    have hoff : (rowGather N E C wf).offCoord (ix2 e f) 1 = f.val := by
      unfold GatherDims.offCoord
      rw [dif_pos ((GatherDims.mem_sKept _ _).mpr ⟨by simp, List.not_mem_nil⟩)]
      rfl
    rw [hst, hoff]; omega

/-- THE ROW GATHER AT `(e, f)`: the operand at `(gatherRow e, f)`. -/
theorem gather_rows_apply (hN : 0 < N) (x : (⟨2, ![N, C]⟩ : Shape).Idx → α) (e : Fin E) (f : Fin C) :
    Host.gather (rowGather N E C wf) x J (ix2 e f) = x (ix2 (gatherRow J hN e) f) := by
  unfold Host.gather
  rw [rowGather_operandIdx wf J hN e f]

end Gather

/-! ## A row gather of two arrays side by side, cut back into its column ranges -/

section GatherColumns
variable {α : Type} {N E C D T w : Nat}

/-- The first `C` columns of the row gather of `[P | Q]` are the row gather of `P`: both read row `gatherRow e`
    (the operands have the same number of rows, so the start index is brought into the same range). -/
theorem slice_gather_concat_left (hN : 0 < N)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (hs : (⟨2, ![E, T]⟩ : Shape).Slices ![0, 0] ⟨2, ![E, C]⟩)
    (P : (⟨2, ![N, C]⟩ : Shape).Idx → α) (Q : (⟨2, ![N, D]⟩ : Shape).Idx → α) (J : IVec ⟨2, ![E, 1]⟩ w) :
    extractStridedSlice ⟨2, ![E, C]⟩ ![0, 0]
        (Host.gather (rowGather N E T wfT)
          (concatenate ⟨2, ![N, T]⟩ 1 [⟨⟨2, ![N, C]⟩, P⟩, ⟨⟨2, ![N, D]⟩, Q⟩] hc) J) hs
      = Host.gather (rowGather N E C wfC) P J := by
  funext i
  obtain ⟨e, f, rfl⟩ : ∃ (e : Fin E) (f : Fin C), i = ix2 e f := ⟨i 0, i 1, eq_ix2 i⟩
  have hCT : C ≤ T := by have := hs.2 1; simpa using this
  have hf : f.val < T := lt_of_lt_of_le f.isLt hCT
  rw [extractStridedSlice_apply ![0, 0] _ hs (ix2 e f) (ix2 e (⟨f.val, hf⟩ : Fin T)) (fun a => by
      match a with
      | ⟨0, _⟩ => exact (Nat.zero_add _).symm
      | ⟨1, _⟩ => exact (Nat.zero_add _).symm),
    gather_rows_apply wfT J hN, gather_rows_apply wfC J hN]
  exact concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)

/-- The `D` columns from column `C` on of the row gather of `[P | Q]` are the row gather of `Q`. -/
theorem slice_gather_concat_right (hN : 0 < N)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hc : Shape.Concatenates [(⟨2, ![N, C]⟩ : Shape), ⟨2, ![N, D]⟩] ⟨2, ![N, T]⟩ 1)
    (hs : (⟨2, ![E, T]⟩ : Shape).Slices ![0, C] ⟨2, ![E, D]⟩)
    (P : (⟨2, ![N, C]⟩ : Shape).Idx → α) (Q : (⟨2, ![N, D]⟩ : Shape).Idx → α) (J : IVec ⟨2, ![E, 1]⟩ w) :
    extractStridedSlice ⟨2, ![E, D]⟩ ![0, C]
        (Host.gather (rowGather N E T wfT)
          (concatenate ⟨2, ![N, T]⟩ 1 [⟨⟨2, ![N, C]⟩, P⟩, ⟨⟨2, ![N, D]⟩, Q⟩] hc) J) hs
      = Host.gather (rowGather N E D wfD) Q J := by
  funext i
  obtain ⟨e, f, rfl⟩ : ∃ (e : Fin E) (f : Fin D), i = ix2 e f := ⟨i 0, i 1, eq_ix2 i⟩
  have hCT : C + D ≤ T := by have := hs.2 1; simpa using this
  have hf : C + f.val < T := by have := f.isLt; omega
  rw [extractStridedSlice_apply ![0, C] _ hs (ix2 e f) (ix2 e (⟨C + f.val, hf⟩ : Fin T)) (fun a => by
      match a with
      | ⟨0, _⟩ => exact (Nat.zero_add _).symm
      | ⟨1, _⟩ => rfl),
    gather_rows_apply wfT J hN, gather_rows_apply wfD J hN]
  exact concatenate_pair_apply_right (t := ⟨2, ![N, T]⟩) (s₁ := ⟨2, ![N, C]⟩) (s₂ := ⟨2, ![N, D]⟩) (1 : Fin 2) P Q hc
    (ix2 (gatherRow J hN e) (⟨C + f.val, hf⟩ : Fin T)) rfl rfl (ix2 (gatherRow J hN e) f) (fun b hb => by
      match b with
      | ⟨0, _⟩ => rfl
      | ⟨1, _⟩ => exact absurd rfl hb) (Nat.add_comm _ _)

end GatherColumns

/-! ## Format changes around a gather, at the ideal instance -/

section Formats
variable {s si t : Shape} {w : Nat} {φ ψ : FTy}

/-- On the extended reals a narrowing and a widening of the format are the identity, so a gather of a narrowed
    array, widened again, is the gather of the array. -/
theorem extf_gather_truncf (d : GatherDims s si t) (X : FVec Ideal s φ) (J : IVec si w)
    (h : ψ.bits < φ.bits) (h' : ψ.bits < φ.bits) :
    extf φ (Host.gather d (truncf ψ X h) J) h' = Host.gather d X J := rfl

/-- A narrowing of the format is the identity on the extended reals. -/
theorem truncf_eq (X : FVec Ideal s φ) (h : ψ.bits < φ.bits) : (truncf ψ X h : FVec Ideal s ψ) = X := rfl

/-- A widening of the format is the identity on the extended reals. -/
theorem extf_eq (X : FVec Ideal s φ) (h : φ.bits < ψ.bits) : (extf ψ X h : FVec Ideal s ψ) = X := rfl

end Formats

end Cert.LibColumns

end
-- ==== Proof.Spec.lean ====
/-
  The network as a function of its arrays, entry by entry, over the extended reals.

  A node p has a feature row X(p, ·) of 512 entries. The code of a node is the affine image of its row,
  code(p, k) = Σ_l X(p, l)·EW(l, k) + EB(k), and the reconstruction is the affine image of the code,
  recov(p, j) = Σ_k code(p, k)·DW(k, j) + DB(j). Two projections feed the graph layers: proj2 of the row by W2 and
  proj1 of the code by W1. A graph aggregation of a per-node quantity Y sums, over the edges e whose destination index
  is n, the edge weight times Y at the edge's source row (the source index brought into the range of the rows):
  agg Y n = Σ_e [dst e = n] · A(e)·Y(row e). The hidden activations are the aggregated projections plus a bias; the
  activation function `elu` keeps a positive argument and sends any other x to c·(exp x − 1); the third projection is
  the sum over the 256 hidden units, the first 128 from the second layer and the last 128 from the first; the logits are
  its aggregation plus a bias, and the output is the logit minus the row's log-sum-exp, written with the row maximum
  taken out: out(n, q) = logit(n, q) − (M(n) + log Σ_q' exp(logit(n, q') − M(n))).
-/
import Idealize.ShloMosaic.PureOps.Ideal
import Idealize.ShloMosaic.Lib.ValueIdx
import proofs.«138230_j33535104647614_2_alg».proof.Proof.LibColumns

noncomputable section

namespace Cert.Spec

open Idealize.ShloMosaic Idealize.ShloMosaic.ValueIdx Cert.LibColumns
open scoped BigOperators

/-- A two-axis array of extended reals. -/
abbrev Arr2 (a b : Nat) : Type := (⟨2, ![a, b]⟩ : Shape).Idx → EReal
/-- A one-axis array of extended reals. -/
abbrev Arr1 (a : Nat) : Type := (⟨1, ![a]⟩ : Shape).Idx → EReal
/-- A column of 32-bit indices, one per edge. -/
abbrev EdgeIdx : Type := IVec ⟨2, ![600000, 1]⟩ 32

/-- The code of node p: the affine image of its feature row. -/
def code (X : Arr2 50000 512) (EW : Arr2 512 128) (EB : Arr1 128) (p : Fin 50000) (k : Fin 128) : EReal :=
  (∑ l : Fin 512, X (ix2 p l) * EW (ix2 l k)) + EB (ix1 k)

/-- The reconstruction of node p: the affine image of its code. -/
def recov (X : Arr2 50000 512) (EW : Arr2 512 128) (EB : Arr1 128) (DW : Arr2 128 512) (DB : Arr1 512)
    (p : Fin 50000) (j : Fin 512) : EReal :=
  (∑ k : Fin 128, code X EW EB p k * DW (ix2 k j)) + DB (ix1 j)

/-- The projection of the feature row by W2. -/
def proj2 (X : Arr2 50000 512) (W2 : Arr2 512 128) (p : Fin 50000) (k : Fin 128) : EReal :=
  ∑ l : Fin 512, X (ix2 p l) * W2 (ix2 l k)

/-- The projection of the code by W1. -/
def proj1 (X : Arr2 50000 512) (EW : Arr2 512 128) (EB : Arr1 128) (W1 : Arr2 128 128) (p : Fin 50000) (k : Fin 128) : EReal :=
  ∑ l : Fin 128, code X EW EB p l * W1 (ix2 l k)

/-- The graph aggregation of a per-node quantity: over the edges whose destination index is n, the edge weight times
    the quantity at the edge's source row. -/
def agg (A : Arr2 600000 1) (J I : EdgeIdx) (Y : Fin 50000 → EReal) (n : Fin 50000) : EReal :=
  ∑ e : Fin 600000, if (I (ix2 e (0 : Fin 1))).toInt = (n.val : Int)
    then A (ix2 e (0 : Fin 1)) * Y (gatherRow J (by decide : 0 < 50000) e) else 0

/-- The activation: a positive argument is kept, any other x goes to c·(exp x − 1), c the single-precision word of 0.1. -/
def elu (x : EReal) : EReal :=
  Scalar.select (Ideal.cmp .ogt x (Ideal.ofBits .f32 0x00000000#32)) x
    (Ideal.ofBits .f32 0x3DCCCCCD#32 * (Ideal.exp x - 1))

/-- The second layer's hidden pre-activation. -/
def hid2 (X : Arr2 50000 512) (W2 : Arr2 512 128) (B2 : Arr1 128) (A : Arr2 600000 1) (J I : EdgeIdx)
    (n : Fin 50000) (k : Fin 128) : EReal :=
  agg A J I (fun p => proj2 X W2 p k) n + B2 (ix1 k)

/-- The first layer's hidden pre-activation. -/
def hid1 (X : Arr2 50000 512) (EW : Arr2 512 128) (EB : Arr1 128) (W1 : Arr2 128 128) (B1 : Arr1 128)
    (A : Arr2 600000 1) (J I : EdgeIdx) (n : Fin 50000) (k : Fin 128) : EReal :=
  agg A J I (fun p => proj1 X EW EB W1 p k) n + B1 (ix1 k)

/-- The third projection: over the 256 hidden units, rows 0–127 of W3 meeting the second layer's activations and
    rows 128–255 the first layer's. -/
def proj3 (H2 H1 : Fin 50000 → Fin 128 → EReal) (W3 : Arr2 256 40) (n : Fin 50000) (q : Fin 40) : EReal :=
  (∑ k : Fin 128, elu (H2 n k) * W3 (ix2 (⟨k.val, by omega⟩ : Fin 256) q))
    + (∑ k : Fin 128, elu (H1 n k) * W3 (ix2 (⟨128 + k.val, by omega⟩ : Fin 256) q))

/-- The logits: the aggregated third projection plus its bias. -/
def logit (P3 : Fin 50000 → Fin 40 → EReal) (B3 : Arr1 40) (A : Arr2 600000 1) (J I : EdgeIdx)
    (n : Fin 50000) (q : Fin 40) : EReal :=
  agg A J I (fun p => P3 p q) n + B3 (ix1 q)

/-- The maximum of a row of 40 entries, folded from the single-precision word of minus infinity. -/
def rowMax (L : Fin 40 → EReal) : EReal :=
  (Finset.univ : Finset (Fin 40)).fold max (Ideal.ofBits .f32 0xFF800000#32) L

/-- The log-softmax of a row with the maximum taken out, the two corrections added before they are subtracted. -/
def lsm (L : Fin 40 → EReal) (q : Fin 40) : EReal :=
  L q - (rowMax L + Ideal.log (∑ q' : Fin 40, Ideal.exp (L q' - rowMax L)))

/-- The same with the corrections subtracted one after the other. -/
def lsm' (L : Fin 40 → EReal) (q : Fin 40) : EReal :=
  (L q - rowMax L) - Ideal.log (∑ q' : Fin 40, Ideal.exp (L q' - rowMax L))

section Whole
variable (X : Arr2 50000 512) (EW : Arr2 512 128) (EB : Arr1 128) (DW : Arr2 128 512) (DB : Arr1 512)
  (W1 : Arr2 128 128) (B1 : Arr1 128) (W2 : Arr2 512 128) (B2 : Arr1 128) (W3 : Arr2 256 40) (B3 : Arr1 40)
  (A : Arr2 600000 1) (J I : EdgeIdx)

/-- The logits of the whole network. -/
def logits (n : Fin 50000) (q : Fin 40) : EReal :=
  logit (proj3 (hid2 X W2 B2 A J I) (hid1 X EW EB W1 B1 A J I) W3) B3 A J I n q

/-- The first result: the log-softmax of the logits, as an array. -/
def outArr : Arr2 50000 40 := fun i => lsm (logits X EW EB W1 B1 W2 B2 W3 B3 A J I (i 0)) (i 1)

/-- The same with the corrections subtracted one after the other. -/
def outArr' : Arr2 50000 40 := fun i => lsm' (logits X EW EB W1 B1 W2 B2 W3 B3 A J I (i 0)) (i 1)

/-- The second result: the reconstruction, as an array. -/
def recArr : Arr2 50000 512 := fun i => recov X EW EB DW DB (i 0) (i 1)

end Whole

end Cert.Spec

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibAggregate.lean ====
/-
  A graph aggregation read at an entry. The updates of an accumulating row scatter are the rows a row gather fetched,
  each scaled by its edge's weight (a column stretched along the rows' length); the scatter starts from an array of zeros.
  At entry (n, f) the result is the sum, over the edges whose scatter index is n, of the edge's weight times the operand's
  entry in the gathered row and column f. For any extents and any index width.
-/
import proofs.«138230_j33535104647614_2_alg».proof.Proof.LibColumns
import proofs.«138230_j33535104647614_2_alg».proof.Proof.LibColumn
import Idealize.ShloMosaic.PureOps.Ideal.Laws

noncomputable section

open scoped BigOperators

namespace Cert.LibAggregate

open Idealize.ShloMosaic Idealize.ShloMosaic.ValueIdx Cert.LibColumns

variable {N E C w : Nat}

/-- THE AGGREGATION AT (n, f). -/
theorem aggregate_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hb : (⟨2, ![E, 1]⟩ : Shape).BroadcastsInDim ⟨2, ![E, C]⟩ ![0, 1])
    (Z : FVec Ideal ⟨2, ![N, C]⟩ .f32) (hZ : ∀ i, Z i = 0)
    (A : FVec Ideal ⟨2, ![E, 1]⟩ .f32) (J I : IVec ⟨2, ![E, 1]⟩ w) (Y : FVec Ideal ⟨2, ![N, C]⟩ .f32)
    (n : Fin N) (f : Fin C) :
    Host.scatterAdd (rowScatter N E C wfs) Z I
        (mulf (broadcastInDim ⟨2, ![E, C]⟩ ![0, 1] hb A) (Host.gather (rowGather N E C wfg) Y J)) (ix2 n f)
      = ∑ e : Fin E, if (I (ix2 e (0 : Fin 1))).toInt = (n.val : Int)
          then A (ix2 e (0 : Fin 1)) * Y (ix2 (gatherRow J hN e) f) else 0 := by
  rw [scatterAdd_rows_apply, hZ, zero_add]
  refine Finset.sum_congr rfl fun e _ => ?_
  rw [mulf_apply, Cert.LibColumn.bcastInDim_a1_ab_apply, gather_rows_apply wfg J hN]

/-- A scalar zero word spread over any shape is zero everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = 0 := by
  rw [Cert.LibColumn.bcastInDim_scalar_apply _ h i ix0, constant_apply, Ideal.ofBits_zero_f32]

end Cert.LibAggregate

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.KernelA.lean ====
/-
  The first region: the encoder / decoder kernel over 25 row blocks of 2000 nodes.

  At a grid point t the kernel sees rows 2000·t … 2000·t + 1999 of the feature array and the whole of every weight
  array. It stores, for its rows, the reconstruction (the affine image of the affine image of the row) and, side by
  side in one 256-wide block, the projection of the row by the second layer's weights (columns 0–127) and the
  projection of the row's code by the first layer's weights (columns 128–255). A matrix product into a zero accumulator
  is the plain sum of products on the extended reals, a change of float format is the identity, and a bias row
  stretched along the rows reads its entry of the column. The 25 blocks tile the 50000 rows, so after the region each
  output array is one function of the region's input arrays, entry by entry.
-/
import proofs.«138230_j33535104647614_2_alg».proof.Proof.Gen.KernelIdeal.Frame
import proofs.«138230_j33535104647614_2_alg».proof.Proof.Spec
import proofs.«138230_j33535104647614_2_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HandA

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- A bias kept as a one-row array, read as a vector. -/
def row1 {n : Nat} (B : (⟨2, ![1, n]⟩ : Shape).Idx → EReal) : Cert.Spec.Arr1 n := fun i => B (ix2 (0 : Fin 1) (i 0))

/-! ## The body's products and sums at an entry -/

theorem mm_512_128 {φ₁ φ₂ : FTy} (prec : Option ContractPrecision) (l : FVec Ideal S2000x512 φ₁) (r : FVec Ideal S512x128 φ₂)
    (p : Fin 2000) (q : Fin 128) :
    matmul dot_S2000x512_S512x128_S2000x128_1_0_0_1_n_n prec l r (constant S2000x128 .f32 0x00000000#32) (ix2 p q)
      = ∑ k : Fin 512, l (ix2 p k) * r (ix2 k q) :=
  Cert.LibPlainDot.matmul_zero_apply (R := 2000) (K := 512) (C := 128) _ prec l r p q

theorem mm_128_512 {φ₁ φ₂ : FTy} (prec : Option ContractPrecision) (l : FVec Ideal S2000x128 φ₁) (r : FVec Ideal S128x512 φ₂)
    (p : Fin 2000) (q : Fin 512) :
    matmul dot_S2000x128_S128x512_S2000x512_1_0_0_1_n_n prec l r (constant S2000x512 .f32 0x00000000#32) (ix2 p q)
      = ∑ k : Fin 128, l (ix2 p k) * r (ix2 k q) :=
  Cert.LibPlainDot.matmul_zero_apply (R := 2000) (K := 128) (C := 512) _ prec l r p q

theorem mm_128_128 {φ₁ φ₂ : FTy} (prec : Option ContractPrecision) (l : FVec Ideal S2000x128 φ₁) (r : FVec Ideal S128x128 φ₂)
    (p : Fin 2000) (q : Fin 128) :
    matmul dot_S2000x128_S128x128_S2000x128_1_0_0_1_n_n prec l r (constant S2000x128 .f32 0x00000000#32) (ix2 p q)
      = ∑ k : Fin 128, l (ix2 p k) * r (ix2 k q) :=
  Cert.LibPlainDot.matmul_zero_apply (R := 2000) (K := 128) (C := 128) _ prec l r p q

/-- The code of the block's row r: the row times the encoder weights plus the bias. -/
theorem pay1_apply (x0 : Vec Ideal S2000x512 .f32) (x1 : Vec Ideal S512x128 .f32) (x3 : Vec Ideal S1x128 .f32)
    (r : Fin 2000) (k : Fin 128) :
    k0_pay1 x0 x1 x3 (ix2 r k) = (∑ l : Fin 512, x0 (ix2 r l) * x1 (ix2 l k)) + x3 (ix2 (0 : Fin 1) k) := by
  unfold k0_pay1
  rw [addf_apply, mm_512_128, broadcastTo_1b_ab_apply, shapeCast_self]

/-- The reconstruction of the block's row r. -/
theorem pay2_apply (x0 : Vec Ideal S2000x512 .f32) (x1 : Vec Ideal S512x128 .f32) (x3 : Vec Ideal S1x128 .f32)
    (x7 : Vec Ideal S128x512 .f32) (x9 : Vec Ideal S1x512 .f32) (r : Fin 2000) (j : Fin 512) :
    k0_pay2 x0 x1 x3 x7 x9 (ix2 r j)
      = (∑ k : Fin 128, k0_pay1 x0 x1 x3 (ix2 r k) * x7 (ix2 k j)) + x9 (ix2 (0 : Fin 1) j) := by
  unfold k0_pay2
  rw [addf_apply, mm_128_512, broadcastTo_1b_ab_apply, shapeCast_self]

/-- The second layer's projection of the block's row r. -/
theorem pay3_apply (x0 : Vec Ideal S2000x512 .f32) (x15 : Vec Ideal S512x128 .bf16) (r : Fin 2000) (k : Fin 128) :
    k0_pay3 x0 x15 (ix2 r k) = ∑ l : Fin 512, x0 (ix2 r l) * x15 (ix2 l k) := by
  unfold k0_pay3
  rw [mm_512_128, shapeCast_self]
  rfl

/-- The first layer's projection of the code of the block's row r. -/
theorem pay4_apply (x0 : Vec Ideal S2000x512 .f32) (x1 : Vec Ideal S512x128 .f32) (x3 : Vec Ideal S1x128 .f32)
    (x19 : Vec Ideal S128x128 .bf16) (r : Fin 2000) (k : Fin 128) :
    k0_pay4 x0 x1 x3 x19 (ix2 r k) = ∑ l : Fin 128, k0_pay1 x0 x1 x3 (ix2 r l) * x19 (ix2 l k) := by
  unfold k0_pay4
  rw [mm_128_128, shapeCast_self]
  rfl

/-! ## The grid: which rows a point's blocks are -/

variable (V : (c : Dev nD) → (b : Ref sig .tc) → Buf (Elt Ideal) ((c : Thread nD τ).loc b))

/-- The block indices of every window at every point: the feature block and both output blocks move down the rows with
    the point, every weight and bias block stays at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 ∧ True :=
  (by decide +kernel : ∀ t : Fin grid0.N, _)

/-- Row r of point t's block is row 2000·t + r of the array. -/
def rowOf (t : Fin cfg0.N) (r : Fin 2000) : Fin 50000 :=
  ⟨t.val * 2000 + r.val, by have h : t.val < 25 := lt_of_lt_of_eq t.isLt N_0; have := r.isLt; omega⟩

/-- The feature block at point t is rows 2000·t … of the feature array. -/
theorem blk0 (c : Dev nD) (t : Fin cfg0.N) :
    (iblk0 V c 0 t : Vec Ideal S2000x512 _) = fun y => V c main_arg0 (ix2 (rowOf t (y 0)) (y 1)) := by
  have e0 : win0_0.index t (0 : Fin 2) = t.val := (idx_facts0 t).1
  have e1 : win0_0.index t (1 : Fin 2) = 0 := (idx_facts0 t).2.1
  funext y
  show V c main_arg0 (((cfg0.win 0).blk t).view.emb y) = V c main_arg0 (ix2 (rowOf t (y 0)) (y 1))
  refine congrArg (V c main_arg0) ?_
  funext a; apply Fin.ext
  match a with
  | ⟨0, _⟩ => show win0_0.index t (0 : Fin 2) * 2000 + 1 * (y 0).val = t.val * 2000 + (y 0).val; rw [e0]; omega
  | ⟨1, _⟩ => show win0_0.index t (1 : Fin 2) * 512 + 1 * (y 1).val = (y 1).val; rw [e1]; omega

theorem blk1 (c : Dev nD) (t : Fin cfg0.N) : (iblk0 V c 1 t : Vec Ideal S512x128 _) = V c main_arg4 := by
  have e0 : win0_1.index t (0 : Fin 2) = 0 := (idx_facts0 t).2.2.1
  have e1 : win0_1.index t (1 : Fin 2) = 0 := (idx_facts0 t).2.2.2.1
  funext y
  show V c main_arg4 (((cfg0.win 1).blk t).view.emb y) = V c main_arg4 y
  refine congrArg (V c main_arg4) ?_
  funext a; apply Fin.ext
  match a with
  | ⟨0, _⟩ => show win0_1.index t (0 : Fin 2) * 512 + 1 * (y 0).val = (y 0).val; rw [e0]; omega
  | ⟨1, _⟩ => show win0_1.index t (1 : Fin 2) * 128 + 1 * (y 1).val = (y 1).val; rw [e1]; omega

theorem blk2 (c : Dev nD) (t : Fin cfg0.N) : (iblk0 V c 2 t : Vec Ideal S1x128 _) = V c main_v2 := by
  have e0 : win0_2.index t (0 : Fin 2) = 0 := (idx_facts0 t).2.2.2.2.1
  have e1 : win0_2.index t (1 : Fin 2) = 0 := (idx_facts0 t).2.2.2.2.2.1
  funext y
  show V c main_v2 (((cfg0.win 2).blk t).view.emb y) = V c main_v2 y
  refine congrArg (V c main_v2) ?_
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem blk3 (c : Dev nD) (t : Fin cfg0.N) : (iblk0 V c 3 t : Vec Ideal S128x512 _) = V c main_arg6 := by
  have e0 : win0_3.index t (0 : Fin 2) = 0 := (idx_facts0 t).2.2.2.2.2.2.1
  have e1 : win0_3.index t (1 : Fin 2) = 0 := (idx_facts0 t).2.2.2.2.2.2.2.1
  funext y
  show V c main_arg6 (((cfg0.win 3).blk t).view.emb y) = V c main_arg6 y
  refine congrArg (V c main_arg6) ?_
  funext a; apply Fin.ext
  match a with
  | ⟨0, _⟩ => show win0_3.index t (0 : Fin 2) * 128 + 1 * (y 0).val = (y 0).val; rw [e0]; omega
  | ⟨1, _⟩ => show win0_3.index t (1 : Fin 2) * 512 + 1 * (y 1).val = (y 1).val; rw [e1]; omega

theorem blk4 (c : Dev nD) (t : Fin cfg0.N) : (iblk0 V c 4 t : Vec Ideal S1x512 _) = V c main_v3 := by
  have e0 : win0_4.index t (0 : Fin 2) = 0 := (idx_facts0 t).2.2.2.2.2.2.2.2.1
  have e1 : win0_4.index t (1 : Fin 2) = 0 := (idx_facts0 t).2.2.2.2.2.2.2.2.2.1
  funext y
  show V c main_v3 (((cfg0.win 4).blk t).view.emb y) = V c main_v3 y
  refine congrArg (V c main_v3) ?_
  funext a; apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

theorem blk5 (c : Dev nD) (t : Fin cfg0.N) : (iblk0 V c 5 t : Vec Ideal S128x128 _) = V c main_v0 := by
  have e0 : win0_5.index t (0 : Fin 2) = 0 := (idx_facts0 t).2.2.2.2.2.2.2.2.2.2.1
  have e1 : win0_5.index t (1 : Fin 2) = 0 := (idx_facts0 t).2.2.2.2.2.2.2.2.2.2.2.1
  funext y
  show V c main_v0 (((cfg0.win 5).blk t).view.emb y) = V c main_v0 y
  refine congrArg (V c main_v0) ?_
  funext a; apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem blk6 (c : Dev nD) (t : Fin cfg0.N) : (iblk0 V c 6 t : Vec Ideal S512x128 _) = V c main_v1 := by
  have e0 : win0_6.index t (0 : Fin 2) = 0 := (idx_facts0 t).2.2.2.2.2.2.2.2.2.2.2.2.1
  have e1 : win0_6.index t (1 : Fin 2) = 0 := (idx_facts0 t).2.2.2.2.2.2.2.2.2.2.2.2.2.1
  funext y
  show V c main_v1 (((cfg0.win 6).blk t).view.emb y) = V c main_v1 y
  refine congrArg (V c main_v1) ?_
  funext a; apply Fin.ext
  match a with
  | ⟨0, _⟩ => show win0_6.index t (0 : Fin 2) * 512 + 1 * (y 0).val = (y 0).val; rw [e0]; omega
  | ⟨1, _⟩ => show win0_6.index t (1 : Fin 2) * 128 + 1 * (y 1).val = (y 1).val; rw [e1]; omega

/-! ## The reconstruction array -/

/-- What point t writes back of the reconstruction is block t of the whole reconstruction array. -/
theorem flushed7 (c : Dev nD) (t : Fin cfg0.N) :
    (dat0 V c).flushed 7 t = ((cfg0.win 7).blk t).view.read (Elt Ideal)
      (Cert.Spec.recArr (V c main_arg0) (V c main_arg4) (row1 (V c main_v2)) (V c main_arg6) (row1 (V c main_v3))) := by
  show (cfg0.win 7).cut (grid0.coords t) ((dat0 V c).after 7 t) = _
  rw [after0_7]
  unfold out0_7
  rw [View.canon_unit_zero hz]
  simp only [View.ld_unit_zero (S := S2000x512) hz, View.ld_unit_zero (S := S512x128) hz, View.ld_unit_zero (S := S1x128) hz,
    View.ld_unit_zero (S := S128x512) hz, View.ld_unit_zero (S := S1x512) hz]
  rw [blk0 V c t, blk1 V c t, blk2 V c t, blk3 V c t, blk4 V c t]
  have e0 : win0_7.index t (0 : Fin 2) = t.val := (idx_facts0 t).2.2.2.2.2.2.2.2.2.2.2.2.2.2.1
  have e1 : win0_7.index t (1 : Fin 2) = 0 := (idx_facts0 t).2.2.2.2.2.2.2.2.2.2.2.2.2.2.2.1
  funext y
  obtain ⟨r, j, rfl⟩ : ∃ (r : Fin 2000) (j : Fin 512), y = ix2 r j := ⟨y 0, y 1, eq_ix2 y⟩
  refine (pay2_apply _ _ _ _ _ r j).trans ?_
  have hemb : ((cfg0.win 7).blk t).view.emb (ix2 r j) = ix2 (rowOf t r) j := by
    funext a; apply Fin.ext
    match a with
    | ⟨0, _⟩ => show win0_7.index t (0 : Fin 2) * 2000 + 1 * r.val = t.val * 2000 + r.val; rw [e0]; omega
    | ⟨1, _⟩ => show win0_7.index t (1 : Fin 2) * 512 + 1 * j.val = j.val; rw [e1]; omega
  show _ = Cert.Spec.recArr _ _ _ _ _ (((cfg0.win 7).blk t).view.emb (ix2 r j))
  rw [hemb]
  unfold Cert.Spec.recArr Cert.Spec.recov Cert.Spec.code
  simp only [pay1_apply]
  rfl

theorem mem_blk7 (t : Fin cfg0.N) (i : S50000x512.Idx) :
    i ∈ ((cfg0.win 7).blk t).view.set ↔ ∀ a : Fin 2, win0_7.index t a * S2000x512.size a ≤ (i a).val
      ∧ (i a).val < win0_7.index t a * S2000x512.size a + S2000x512.size a := by
  show i ∈ ((View.whole main_v4_0).slice (win0_7.rect t)).set ↔ _
  rw [View.set_slice_whole, Rect.mem_set_unit]
  exact Iff.rfl

/-- Every row is in the block of the point its number divided by 2000 names. -/
theorem cover7 (i : S50000x512.Idx) :
    ∃ t : Fin cfg0.N, (cfg0.win 7).flush t = true ∧ i ∈ ((cfg0.win 7).blk t).view.set := by
  have hi0 : (i 0).val < 50000 := (i 0).isLt
  have hi1 : (i 1).val < 512 := (i 1).isLt
  have hlt : (i 0).val / 2000 < cfg0.N := lt_of_lt_of_eq (by omega : (i 0).val / 2000 < 25) N_0.symm
  have e0 : win0_7.index ⟨(i 0).val / 2000, hlt⟩ (0 : Fin 2) = (i 0).val / 2000 := (idx_facts0 ⟨(i 0).val / 2000, hlt⟩).2.2.2.2.2.2.2.2.2.2.2.2.2.2.1
  have e1 : win0_7.index ⟨(i 0).val / 2000, hlt⟩ (1 : Fin 2) = 0 := (idx_facts0 ⟨(i 0).val / 2000, hlt⟩).2.2.2.2.2.2.2.2.2.2.2.2.2.2.2.1
  refine ⟨⟨(i 0).val / 2000, hlt⟩, flush0_7 _, ?_⟩
  rw [mem_blk7]
  intro a
  match a with
  | ⟨0, _⟩ =>
    show win0_7.index ⟨(i 0).val / 2000, hlt⟩ (0 : Fin 2) * 2000 ≤ (i 0).val
      ∧ (i 0).val < win0_7.index ⟨(i 0).val / 2000, hlt⟩ (0 : Fin 2) * 2000 + 2000
    rw [e0]; omega
  | ⟨1, _⟩ =>
    show win0_7.index ⟨(i 0).val / 2000, hlt⟩ (1 : Fin 2) * 512 ≤ (i 1).val
      ∧ (i 1).val < win0_7.index ⟨(i 0).val / 2000, hlt⟩ (1 : Fin 2) * 512 + 512
    rw [e1]; omega

/-- AFTER THE REGION the reconstruction array is the reconstruction of the region's input arrays. -/
theorem final7 (c : Dev nD) :
    (dat0 V c).arrAt 7 cfg0.N
      = Cert.Spec.recArr (V c main_arg0) (V c main_arg4) (row1 (V c main_v2)) (V c main_arg6) (row1 (V c main_v3)) :=
  (dat0 V c).arrAt_eq_of_cover 7 _ (fun t _ => flushed7 V c t) cover7

/-! ## The projections array: two 128-wide halves side by side -/

/-- Entry (p, q) of the projections array: the second layer's projection in columns 0–127, the first layer's in
    columns 128–255. -/
def ycat (X : Cert.Spec.Arr2 50000 512) (EW : Cert.Spec.Arr2 512 128) (EB : Cert.Spec.Arr1 128) (W1 : Cert.Spec.Arr2 128 128)
    (W2 : Cert.Spec.Arr2 512 128) (p : Fin 50000) (q : Fin 256) : EReal :=
  if h : q.val < 128 then Cert.Spec.proj2 X W2 p ⟨q.val, h⟩
  else Cert.Spec.proj1 X EW EB W1 p ⟨q.val - 128, by have := q.isLt; omega⟩

/-- The projections array. -/
def ycatArr (X : Cert.Spec.Arr2 50000 512) (EW : Cert.Spec.Arr2 512 128) (EB : Cert.Spec.Arr1 128) (W1 : Cert.Spec.Arr2 128 128)
    (W2 : Cert.Spec.Arr2 512 128) : Cert.Spec.Arr2 50000 256 := fun i => ycat X EW EB W1 W2 (i 0) (i 1)

/-- Two stores that fill the left and the right half of a 256-wide block leave, at column q, the left store's value at
    q when q < 128 and the right store's at q − 128 otherwise. -/
theorem two_halves (p4 p3 : Vec Ideal S2000x128 .f32) (r : Fin 2000) (q : Fin 256) :
    View.canon [(⟨r0_7, p4⟩ : View.Piece (Elt Ideal) S2000x256 .f32), ⟨r0_6, p3⟩] (ix2 r q)
      = if h : q.val < 128 then p3 (ix2 r ⟨q.val, h⟩) else p4 (ix2 r ⟨q.val - 128, by have := q.isLt; omega⟩) := by
  have hq := q.isLt
  by_cases h : q.val < 128
  · rw [dif_pos h]
    have hnot : (ix2 r q : S2000x256.Idx) ∉ (r0_7 : Rect S2000x256).set := by
      rw [Rect.mem_set_unit]
      intro hh
      have h1 := (hh 1).1
      have : (128 : Nat) ≤ q.val := h1
      omega
    refine (View.canon_cons_of_not_mem (⟨r0_7, p4⟩ : View.Piece (Elt Ideal) S2000x256 .f32) [⟨r0_6, p3⟩] hnot).trans ?_
    have hx : (r0_6 : Rect S2000x256).emb (ix2 r (⟨q.val, h⟩ : Fin 128)) = ix2 r q := by
      funext a; apply Fin.ext
      match a with
      | ⟨0, _⟩ => show 0 + 1 * r.val = r.val; omega
      | ⟨1, _⟩ => show 0 + 1 * q.val = q.val; omega
    rw [← hx]
    exact View.canon_cons_emb (Val := Elt Ideal) r0_6 p3 [] (ix2 r (⟨q.val, h⟩ : Fin 128))
  · rw [dif_neg h]
    have hx : (r0_7 : Rect S2000x256).emb (ix2 r (⟨q.val - 128, by omega⟩ : Fin 128)) = ix2 r q := by
      funext a; apply Fin.ext
      match a with
      | ⟨0, _⟩ => show 0 + 1 * r.val = r.val; omega
      | ⟨1, _⟩ => show 128 + 1 * (q.val - 128) = q.val; omega
    rw [← hx]
    exact View.canon_cons_emb (Val := Elt Ideal) r0_7 p4 [⟨r0_6, p3⟩] (ix2 r (⟨q.val - 128, by omega⟩ : Fin 128))

/-- What point t writes back of the projections is block t of the whole projections array. -/
theorem flushed8 (c : Dev nD) (t : Fin cfg0.N) :
    (dat0 V c).flushed 8 t = ((cfg0.win 8).blk t).view.read (Elt Ideal)
      (ycatArr (V c main_arg0) (V c main_arg4) (row1 (V c main_v2)) (V c main_v0) (V c main_v1)) := by
  show (cfg0.win 8).cut (grid0.coords t) ((dat0 V c).after 8 t) = _
  rw [after0_8]
  unfold out0_8
  simp only [View.ld_unit_zero (S := S2000x512) hz, View.ld_unit_zero (S := S512x128) hz, View.ld_unit_zero (S := S1x128) hz,
    View.ld_unit_zero (S := S128x128) hz]
  rw [blk0 V c t, blk1 V c t, blk2 V c t, blk5 V c t, blk6 V c t]
  have e0 : win0_8.index t (0 : Fin 2) = t.val := (idx_facts0 t).2.2.2.2.2.2.2.2.2.2.2.2.2.2.2.2.1
  have e1 : win0_8.index t (1 : Fin 2) = 0 := (idx_facts0 t).2.2.2.2.2.2.2.2.2.2.2.2.2.2.2.2.2.1
  funext y
  obtain ⟨r, q, rfl⟩ : ∃ (r : Fin 2000) (q : Fin 256), y = ix2 r q := ⟨y 0, y 1, eq_ix2 y⟩
  refine (two_halves _ _ r q).trans ?_
  have hemb : ((cfg0.win 8).blk t).view.emb (ix2 r q) = ix2 (rowOf t r) q := by
    funext a; apply Fin.ext
    match a with
    | ⟨0, _⟩ => show win0_8.index t (0 : Fin 2) * 2000 + 1 * r.val = t.val * 2000 + r.val; rw [e0]; omega
    | ⟨1, _⟩ => show win0_8.index t (1 : Fin 2) * 256 + 1 * q.val = q.val; rw [e1]; omega
  show _ = ycatArr _ _ _ _ _ (((cfg0.win 8).blk t).view.emb (ix2 r q))
  rw [hemb]
  show _ = ycat _ _ _ _ _ (rowOf t r) q
  unfold ycat
  by_cases h : q.val < 128
  · rw [dif_pos h, dif_pos h, pay3_apply]
    rfl
  · rw [dif_neg h, dif_neg h, pay4_apply]
    unfold Cert.Spec.proj1 Cert.Spec.code
    simp only [pay1_apply]
    rfl

theorem mem_blk8 (t : Fin cfg0.N) (i : S50000x256.Idx) :
    i ∈ ((cfg0.win 8).blk t).view.set ↔ ∀ a : Fin 2, win0_8.index t a * S2000x256.size a ≤ (i a).val
      ∧ (i a).val < win0_8.index t a * S2000x256.size a + S2000x256.size a := by
  show i ∈ ((View.whole main_v4_1).slice (win0_8.rect t)).set ↔ _
  rw [View.set_slice_whole, Rect.mem_set_unit]
  exact Iff.rfl

theorem cover8 (i : S50000x256.Idx) :
    ∃ t : Fin cfg0.N, (cfg0.win 8).flush t = true ∧ i ∈ ((cfg0.win 8).blk t).view.set := by
  have hi0 : (i 0).val < 50000 := (i 0).isLt
  have hi1 : (i 1).val < 256 := (i 1).isLt
  have hlt : (i 0).val / 2000 < cfg0.N := lt_of_lt_of_eq (by omega : (i 0).val / 2000 < 25) N_0.symm
  have e0 : win0_8.index ⟨(i 0).val / 2000, hlt⟩ (0 : Fin 2) = (i 0).val / 2000 := (idx_facts0 ⟨(i 0).val / 2000, hlt⟩).2.2.2.2.2.2.2.2.2.2.2.2.2.2.2.2.1
  have e1 : win0_8.index ⟨(i 0).val / 2000, hlt⟩ (1 : Fin 2) = 0 := (idx_facts0 ⟨(i 0).val / 2000, hlt⟩).2.2.2.2.2.2.2.2.2.2.2.2.2.2.2.2.2.1
  refine ⟨⟨(i 0).val / 2000, hlt⟩, flush0_8 _, ?_⟩
  rw [mem_blk8]
  intro a
  match a with
  | ⟨0, _⟩ =>
    show win0_8.index ⟨(i 0).val / 2000, hlt⟩ (0 : Fin 2) * 2000 ≤ (i 0).val
      ∧ (i 0).val < win0_8.index ⟨(i 0).val / 2000, hlt⟩ (0 : Fin 2) * 2000 + 2000
    rw [e0]; omega
  | ⟨1, _⟩ =>
    show win0_8.index ⟨(i 0).val / 2000, hlt⟩ (1 : Fin 2) * 256 ≤ (i 1).val
      ∧ (i 1).val < win0_8.index ⟨(i 0).val / 2000, hlt⟩ (1 : Fin 2) * 256 + 256
    rw [e1]; omega

/-- AFTER THE REGION the projections array is the two projections of the region's input arrays, side by side. -/
theorem final8 (c : Dev nD) :
    (dat0 V c).arrAt 8 cfg0.N
      = ycatArr (V c main_arg0) (V c main_arg4) (row1 (V c main_v2)) (V c main_v0) (V c main_v1) :=
  (dat0 V c).arrAt_eq_of_cover 8 _ (fun t _ => flushed8 V c t) cover8

end Cert.KernelIdeal.HandA

end
-- ==== Proof.KernelB.lean ====
/-
  The second region: the activation and third-projection kernel over 25 row blocks of 2000 nodes.

  At a grid point the kernel sees 2000 rows of the 256-wide aggregated array and the whole of two bias rows and two
  128 × 40 weight arrays. It splits a row into its two 128-wide halves, adds each half's bias, applies the activation
  entry by entry (a positive entry is kept, any other x becomes c·(exp x − 1)), multiplies each half by its weight
  array and adds the two products. On the extended reals a product into a zero accumulator is the plain sum of
  products and a change of float format is the identity. The 25 blocks tile the rows, so after the region the output
  array is one function of the region's input arrays.
-/
import proofs.«138230_j33535104647614_2_alg».proof.Proof.Gen.KernelIdeal.Frame
import proofs.«138230_j33535104647614_2_alg».proof.Proof.Spec
import proofs.«138230_j33535104647614_2_alg».proof.Proof.LibPlainDot
import Idealize.ShloMosaic.Lib.Pipeline.Value
import Idealize.ShloMosaic.Lib.ValueIdx
import Idealize.ShloMosaic.Lib.ValueLayout
import Idealize.ShloMosaic.Lib.IdealHost

set_option maxRecDepth 16384

noncomputable section

open scoped BigOperators

namespace Cert.KernelIdeal.HandB

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- Column k of the left half of a 256-wide row. -/
def lo (k : Fin 128) : Fin 256 := ⟨k.val, by omega⟩
/-- Column k of the right half of a 256-wide row. -/
def hi (k : Fin 128) : Fin 256 := ⟨128 + k.val, by omega⟩

/-- The third projection of node p from the aggregated array H, the two bias rows and the two weight halves. -/
def proj3' (H : Cert.Spec.Arr2 50000 256) (B2r B1r : Cert.Spec.Arr2 1 128) (Wt Wb : Cert.Spec.Arr2 128 40)
    (p : Fin 50000) (q : Fin 40) : EReal :=
  (∑ k : Fin 128, Cert.Spec.elu (H (ix2 p (lo k)) + B2r (ix2 (0 : Fin 1) k)) * Wt (ix2 k q))
    + (∑ k : Fin 128, Cert.Spec.elu (H (ix2 p (hi k)) + B1r (ix2 (0 : Fin 1) k)) * Wb (ix2 k q))

/-- The same as an array. -/
def proj3Arr (H : Cert.Spec.Arr2 50000 256) (B2r B1r : Cert.Spec.Arr2 1 128) (Wt Wb : Cert.Spec.Arr2 128 40) :
    Cert.Spec.Arr2 50000 40 := fun i => proj3' H B2r B1r Wt Wb (i 0) (i 1)

/-! ## The body at an entry -/

theorem mm_128_40 {φ₁ φ₂ : FTy} (prec : Option ContractPrecision) (l : FVec Ideal S2000x128 φ₁) (r : FVec Ideal S128x40 φ₂)
    (p : Fin 2000) (q : Fin 40) :
    matmul dot_S2000x128_S128x40_S2000x40_1_0_0_1_n_n prec l r (constant S2000x40 .f32 0x00000000#32) (ix2 p q)
      = ∑ k : Fin 128, l (ix2 p k) * r (ix2 k q) :=
  Cert.LibPlainDot.matmul_zero_apply (R := 2000) (K := 128) (C := 40) _ prec l r p q

theorem slice_lo (v : FVec Ideal S2000x256 .f32) (r : Fin 2000) (k : Fin 128) :
    extractStridedSlice S2000x128 ![0, 0] v slices_S2000x256_o0_0_S2000x128 (ix2 r k) = v (ix2 r (lo k)) :=
  extractStridedSlice_apply ![0, 0] v _ (ix2 r k) (ix2 r (lo k)) fun a => by
    match a with
    | ⟨0, _⟩ => exact (Nat.zero_add _).symm
    | ⟨1, _⟩ => exact (Nat.zero_add _).symm

theorem slice_hi (v : FVec Ideal S2000x256 .f32) (r : Fin 2000) (k : Fin 128) :
    extractStridedSlice S2000x128 ![0, 128] v slices_S2000x256_o0_128_S2000x128 (ix2 r k) = v (ix2 r (hi k)) :=
  extractStridedSlice_apply ![0, 128] v _ (ix2 r k) (ix2 r (hi k)) fun a => by
    match a with
    | ⟨0, _⟩ => exact (Nat.zero_add _).symm
    | ⟨1, _⟩ => rfl

/-- The activation as the kernel spells it, at an entry. -/
theorem act_apply (v : FVec Ideal S2000x128 .f32) (r : Fin 2000) (k : Fin 128) :
    select (cmpf .ogt v (broadcast S2000x128 (Scalar.ofBits .f32 0x00000000#32))) v
        (mulf (broadcast S2000x128 (Scalar.ofBits .f32 0x3DCCCCCD#32))
          (subf (exp v) (broadcast S2000x128 (Scalar.ofBits .f32 0x3F800000#32)))) (ix2 r k)
      = Cert.Spec.elu (v (ix2 r k)) := by
  rw [select_apply, cmpf_apply, mulf_apply, subf_apply]
  simp only [broadcast_apply]
  unfold Cert.Spec.elu
  rw [show (Scalar.ofBits (F := Ideal) .f32 0x3F800000#32 : EReal) = 1 from Ideal.ofBits_one_f32]
  rfl

/-- The third projection of the block's row r. -/
theorem pay_apply (x0 : Vec Ideal S2000x256 .f32) (x3 x8 : Vec Ideal S1x128 .f32) (x30 x32 : Vec Ideal S128x40 .bf16)
    (r : Fin 2000) (q : Fin 40) :
    k1_pay1 x0 x3 x8 x30 x32 (ix2 r q)
      = (∑ k : Fin 128, Cert.Spec.elu (x0 (ix2 r (lo k)) + x3 (ix2 (0 : Fin 1) k)) * x30 (ix2 k q))
        + (∑ k : Fin 128, Cert.Spec.elu (x0 (ix2 r (hi k)) + x8 (ix2 (0 : Fin 1) k)) * x32 (ix2 k q)) := by
  unfold k1_pay1
  rw [addf_apply, mm_128_40, mm_128_40]
  simp only [truncf_apply, shapeCast_self, act_apply, addf_apply, slice_lo, slice_hi, broadcastTo_1b_ab_apply]

/-! ## The grid -/

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ True :=
  (by decide +kernel : ∀ t : Fin grid1.N, _)

/-- Row r of point t's block is row 2000·t + r of the array. -/
def rowOf (t : Fin cfg1.N) (r : Fin 2000) : Fin 50000 :=
  ⟨t.val * 2000 + r.val, by have h : t.val < 25 := lt_of_lt_of_eq t.isLt N_1; have := r.isLt; omega⟩

theorem blk0 (c : Dev nD) (t : Fin cfg1.N) :
    (iblk1 V c 0 t : Vec Ideal S2000x256 _) = fun y => V c main_v17 (ix2 (rowOf t (y 0)) (y 1)) := by
  have e0 : win1_0.index t (0 : Fin 2) = t.val := (idx_facts1 t).1
  have e1 : win1_0.index t (1 : Fin 2) = 0 := (idx_facts1 t).2.1
  funext y
  show V c main_v17 (((cfg1.win 0).blk t).view.emb y) = V c main_v17 (ix2 (rowOf t (y 0)) (y 1))
  refine congrArg (V c main_v17) ?_
  funext a; apply Fin.ext
  match a with
  | ⟨0, _⟩ => show win1_0.index t (0 : Fin 2) * 2000 + 1 * (y 0).val = t.val * 2000 + (y 0).val; rw [e0]; omega
  | ⟨1, _⟩ => show win1_0.index t (1 : Fin 2) * 256 + 1 * (y 1).val = (y 1).val; rw [e1]; omega

theorem blk1 (c : Dev nD) (t : Fin cfg1.N) : (iblk1 V c 1 t : Vec Ideal S1x128 _) = V c main_v22 := by
  have e0 : win1_1.index t (0 : Fin 2) = 0 := (idx_facts1 t).2.2.1
  have e1 : win1_1.index t (1 : Fin 2) = 0 := (idx_facts1 t).2.2.2.1
  funext y
  show V c main_v22 (((cfg1.win 1).blk t).view.emb y) = V c main_v22 y
  refine congrArg (V c main_v22) ?_
  funext a; apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

theorem blk2 (c : Dev nD) (t : Fin cfg1.N) : (iblk1 V c 2 t : Vec Ideal S1x128 _) = V c main_v23 := by
  have e0 : win1_2.index t (0 : Fin 2) = 0 := (idx_facts1 t).2.2.2.2.1
  have e1 : win1_2.index t (1 : Fin 2) = 0 := (idx_facts1 t).2.2.2.2.2.1
  funext y
  show V c main_v23 (((cfg1.win 2).blk t).view.emb y) = V c main_v23 y
  refine congrArg (V c main_v23) ?_
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem blk3 (c : Dev nD) (t : Fin cfg1.N) : (iblk1 V c 3 t : Vec Ideal S128x40 _) = V c main_v19 := by
  have e0 : win1_3.index t (0 : Fin 2) = 0 := (idx_facts1 t).2.2.2.2.2.2.1
  have e1 : win1_3.index t (1 : Fin 2) = 0 := (idx_facts1 t).2.2.2.2.2.2.2.1
  funext y
  show V c main_v19 (((cfg1.win 3).blk t).view.emb y) = V c main_v19 y
  refine congrArg (V c main_v19) ?_
  funext a; apply Fin.ext
  match a with
  | ⟨0, _⟩ => show win1_3.index t (0 : Fin 2) * 128 + 1 * (y 0).val = (y 0).val; rw [e0]; omega
  | ⟨1, _⟩ => show win1_3.index t (1 : Fin 2) * 40 + 1 * (y 1).val = (y 1).val; rw [e1]; omega

theorem blk4 (c : Dev nD) (t : Fin cfg1.N) : (iblk1 V c 4 t : Vec Ideal S128x40 _) = V c main_v21 := by
  have e0 : win1_4.index t (0 : Fin 2) = 0 := (idx_facts1 t).2.2.2.2.2.2.2.2.1
  have e1 : win1_4.index t (1 : Fin 2) = 0 := (idx_facts1 t).2.2.2.2.2.2.2.2.2.1
  funext y
  show V c main_v21 (((cfg1.win 4).blk t).view.emb y) = V c main_v21 y
  refine congrArg (V c main_v21) ?_
  funext a; apply Fin.ext
  match a with
  | ⟨0, _⟩ => show win1_4.index t (0 : Fin 2) * 128 + 1 * (y 0).val = (y 0).val; rw [e0]; omega
  | ⟨1, _⟩ => show win1_4.index t (1 : Fin 2) * 40 + 1 * (y 1).val = (y 1).val; rw [e1]; omega

/-! ## The output array -/

theorem flushed5 (c : Dev nD) (t : Fin cfg1.N) :
    (dat1 V c).flushed 5 t = ((cfg1.win 5).blk t).view.read (Elt Ideal)
      (proj3Arr (V c main_v17) (V c main_v22) (V c main_v23) (V c main_v19) (V c main_v21)) := by
  show (cfg1.win 5).cut (grid1.coords t) ((dat1 V c).after 5 t) = _
  rw [after1_5]
  unfold out1_5
  rw [View.canon_unit_zero hz]
  simp only [View.ld_unit_zero (S := S2000x256) hz, View.ld_unit_zero (S := S1x128) hz, View.ld_unit_zero (S := S128x40) hz]
  rw [blk0 V c t, blk1 V c t, blk2 V c t, blk3 V c t, blk4 V c t]
  have e0 : win1_5.index t (0 : Fin 2) = t.val := (idx_facts1 t).2.2.2.2.2.2.2.2.2.2.1
  have e1 : win1_5.index t (1 : Fin 2) = 0 := (idx_facts1 t).2.2.2.2.2.2.2.2.2.2.2.1
  funext y
  obtain ⟨r, q, rfl⟩ : ∃ (r : Fin 2000) (q : Fin 40), y = ix2 r q := ⟨y 0, y 1, eq_ix2 y⟩
  refine (pay_apply _ _ _ _ _ r q).trans ?_
  have hemb : ((cfg1.win 5).blk t).view.emb (ix2 r q) = ix2 (rowOf t r) q := by
    funext a; apply Fin.ext
    match a with
    | ⟨0, _⟩ => show win1_5.index t (0 : Fin 2) * 2000 + 1 * r.val = t.val * 2000 + r.val; rw [e0]; omega
    | ⟨1, _⟩ => show win1_5.index t (1 : Fin 2) * 40 + 1 * q.val = q.val; rw [e1]; omega
  show _ = proj3Arr _ _ _ _ _ (((cfg1.win 5).blk t).view.emb (ix2 r q))
  rw [hemb]
  rfl

theorem mem_blk5 (t : Fin cfg1.N) (i : S50000x40.Idx) :
    i ∈ ((cfg1.win 5).blk t).view.set ↔ ∀ a : Fin 2, win1_5.index t a * S2000x40.size a ≤ (i a).val
      ∧ (i a).val < win1_5.index t a * S2000x40.size a + S2000x40.size a := by
  show i ∈ ((View.whole main_v24).slice (win1_5.rect t)).set ↔ _
  rw [View.set_slice_whole, Rect.mem_set_unit]
  exact Iff.rfl

theorem cover5 (i : S50000x40.Idx) :
    ∃ t : Fin cfg1.N, (cfg1.win 5).flush t = true ∧ i ∈ ((cfg1.win 5).blk t).view.set := by
  have hi0 : (i 0).val < 50000 := (i 0).isLt
  have hi1 : (i 1).val < 40 := (i 1).isLt
  have hlt : (i 0).val / 2000 < cfg1.N := lt_of_lt_of_eq (by omega : (i 0).val / 2000 < 25) N_1.symm
  have e0 : win1_5.index ⟨(i 0).val / 2000, hlt⟩ (0 : Fin 2) = (i 0).val / 2000 := (idx_facts1 ⟨(i 0).val / 2000, hlt⟩).2.2.2.2.2.2.2.2.2.2.1
  have e1 : win1_5.index ⟨(i 0).val / 2000, hlt⟩ (1 : Fin 2) = 0 := (idx_facts1 ⟨(i 0).val / 2000, hlt⟩).2.2.2.2.2.2.2.2.2.2.2.1
  refine ⟨⟨(i 0).val / 2000, hlt⟩, flush1_5 _, ?_⟩
  rw [mem_blk5]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e0]; omega
  | ⟨1, _⟩ =>
    show win1_5.index ⟨(i 0).val / 2000, hlt⟩ (1 : Fin 2) * 40 ≤ (i 1).val
      ∧ (i 1).val < win1_5.index ⟨(i 0).val / 2000, hlt⟩ (1 : Fin 2) * 40 + 40
    rw [e1]; omega

/-- AFTER THE REGION the output array is the third projection of the region's input arrays. -/
theorem final5 (c : Dev nD) :
    (dat1 V c).arrAt 5 cfg1.N
      = proj3Arr (V c main_v17) (V c main_v22) (V c main_v23) (V c main_v19) (V c main_v21) :=
  (dat1 V c).arrAt_eq_of_cover 5 _ (fun t _ => flushed5 V c t) cover5

end Cert.KernelIdeal.HandB

end
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«138230_j33535104647614_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowF32.lean ====
/-
  The vector unit's single-precision lane sum and lane maximum along the second axis, read at a row, with the side
  condition on the initial word spelt as the literal equation a printed reduction carries (`0#32 = 0#32`,
  `0xFF800000#32 = 0xFF800000#32`), so that a rewrite matches the printed term as it stands. For any extents.
-/
import proofs.«138230_j33535104647614_2_alg».proof.Proof.LibRowReduce
import Idealize.ShloMosaic.PureOps.Ideal
import Idealize.ShloMosaic.PureOps.Ideal.Laws
import Idealize.ShloMosaic.Lib.ValueIdx

noncomputable section

namespace Cert.LibRowF32

open Idealize.ShloMosaic Idealize.ShloMosaic.ValueIdx Cert.LibRowReduce

variable {a b : ℕ}

/-- A single-precision lane sum along the second axis, started from the zero word, at row `p`: the plain sum of the row. -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  rowSum_apply src _ h hφ hacc p

/-- A single-precision lane maximum along the second axis, started from the word of minus infinity, at row `p`: the
    fold of `max` over the row from that word's value. -/
theorem rowMax_f32 (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

end Cert.LibRowF32

end
-- ==== Proof.KernelC.lean ====
/-
  The third region: the bias and log-softmax kernel over 25 row blocks of 2000 nodes.

  At a grid point t the kernel sees rows 2000·t … 2000·t + 1999 of the [50000, 40] array and the whole of the one-row
  bias. It adds the bias row to every row, takes each row's maximum M (folded from minus infinity), the sum
  S = Σ exp(x − M) over the row, and stores x − (M + log S): the log-softmax of the biased row with the maximum taken
  out. The lane maximum and the lane sum of a row are the fold of max and the plain sum over the row; a column kept as
  [2000, 1] and repeated along the rows reads its entry of the row. The 25 blocks tile the 50000 rows, so after the
  region the output array is one function of the region's input arrays, entry by entry.
-/
import proofs.«138230_j33535104647614_2_alg».proof.Proof.Gen.KernelIdeal.Frame
import proofs.«138230_j33535104647614_2_alg».proof.Proof.Spec
import proofs.«138230_j33535104647614_2_alg».proof.Proof.LibRowF32
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HandC

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The body's arithmetic at an entry -/

/-- An array minus a column repeated along its rows, at an entry. -/
theorem sub_col_apply (v : FVec Ideal S2000x40 .f32) (c : FVec Ideal S2000x1 .f32) (r : Fin 2000) (q : Fin 40) :
    subf v (broadcastTo S2000x40 c broadcasts_S2000x1_S2000x40) (ix2 r q) = v (ix2 r q) - c (ix2 r (0 : Fin 1)) :=
  (subf_apply _ _ _).trans
    (congrArg (fun z => v (ix2 r q) - z) (Cert.LibColumn.broadcastTo_a1_ab_apply c broadcasts_S2000x1_S2000x40 r q))

/-- A vector of 2000 entries kept as a column reads its entry of the row. -/
theorem col_apply (w : FVec Ideal S2000 .f32) (r : Fin 2000) :
    shapeCast S2000x1 w shapeCasts_S2000_S2000x1 (ix2 r (0 : Fin 1)) = w (ix1 r) :=
  Cert.LibColumn.shapeCast_a_a1_apply w shapeCasts_S2000_S2000x1 r 0

/-- The lane maximum of row r, from the word of minus infinity: the row's maximum. -/
theorem rowMax_v (v : FVec Ideal S2000x40 .f32) (r : Fin 2000) :
    multiReduction .maximumf [1] S2000 v 0xFF800000#32 reduces_S2000x40_S2000 (.inl rfl) rfl (ix1 r)
      = Cert.Spec.rowMax (fun q' => v (ix2 r q')) :=
  Cert.LibRowF32.rowMax_f32 v reduces_S2000x40_S2000 (.inl rfl) rfl r

/-- The lane sum of row r, from the zero word: the row's plain sum. -/
theorem rowSum_v (v : FVec Ideal S2000x40 .f32) (r : Fin 2000) :
    multiReduction .add [1] S2000 v 0x00000000#32 reduces_S2000x40_S2000 (.inl rfl) rfl (ix1 r)
      = ∑ k : Fin 40, v (ix2 r k) :=
  Cert.LibRowF32.rowSum_f32 v reduces_S2000x40_S2000 (.inl rfl) rfl r

/-- A column plus the logarithm of a column, both kept from vectors, at a row. -/
theorem add_log_col (a b : FVec Ideal S2000 .f32) (r : Fin 2000) :
    addf (shapeCast S2000x1 a shapeCasts_S2000_S2000x1) (log (shapeCast S2000x1 b shapeCasts_S2000_S2000x1)) (ix2 r (0 : Fin 1))
      = a (ix1 r) + Ideal.log (b (ix1 r)) := by
  show shapeCast S2000x1 a shapeCasts_S2000_S2000x1 (ix2 r (0 : Fin 1))
      + Ideal.log (shapeCast S2000x1 b shapeCasts_S2000_S2000x1 (ix2 r (0 : Fin 1))) = _
  rw [col_apply, col_apply]

/-- The exponential of an array minus a vector kept as a column and repeated along the rows, at an entry. -/
theorem exp_sub_col (v : FVec Ideal S2000x40 .f32) (a : FVec Ideal S2000 .f32) (r : Fin 2000) (k : Fin 40) :
    exp (subf v (broadcastTo S2000x40 (shapeCast S2000x1 a shapeCasts_S2000_S2000x1) broadcasts_S2000x1_S2000x40)) (ix2 r k)
      = Ideal.exp (v (ix2 r k) - a (ix1 r)) := by
  show Ideal.exp (subf v (broadcastTo S2000x40 (shapeCast S2000x1 a shapeCasts_S2000_S2000x1) broadcasts_S2000x1_S2000x40) (ix2 r k)) = _
  rw [sub_col_apply, col_apply]

/-- The log-softmax of an array of 2000 rows as the vector unit computes it, read at an entry: the entry minus the
    row's maximum plus the logarithm of the row's sum of exponentials of the differences. -/
theorem lsm_vec (v : FVec Ideal S2000x40 .f32) (r : Fin 2000) (q : Fin 40) :
    subf v (broadcastTo S2000x40
        (addf (shapeCast S2000x1 (multiReduction .maximumf [1] S2000 v 0xFF800000#32 reduces_S2000x40_S2000 (.inl rfl) rfl) shapeCasts_S2000_S2000x1)
          (log (shapeCast S2000x1
            (multiReduction .add [1] S2000
              (exp (subf v (broadcastTo S2000x40
                (shapeCast S2000x1 (multiReduction .maximumf [1] S2000 v 0xFF800000#32 reduces_S2000x40_S2000 (.inl rfl) rfl) shapeCasts_S2000_S2000x1)
                broadcasts_S2000x1_S2000x40)))
              0x00000000#32 reduces_S2000x40_S2000 (.inl rfl) rfl)
            shapeCasts_S2000_S2000x1)))
        broadcasts_S2000x1_S2000x40) (ix2 r q)
      = Cert.Spec.lsm (fun q' => v (ix2 r q')) q := by
  refine (sub_col_apply v _ r q).trans ?_
  refine (congrArg (fun z => v (ix2 r q) - z) (add_log_col _ _ r)).trans ?_
  have hS := rowSum_v (exp (subf v (broadcastTo S2000x40
    (shapeCast S2000x1 (multiReduction .maximumf [1] S2000 v 0xFF800000#32 reduces_S2000x40_S2000 (.inl rfl) rfl) shapeCasts_S2000_S2000x1)
    broadcasts_S2000x1_S2000x40))) r
  have hE : ∀ k : Fin 40, exp (subf v (broadcastTo S2000x40
      (shapeCast S2000x1 (multiReduction .maximumf [1] S2000 v 0xFF800000#32 reduces_S2000x40_S2000 (.inl rfl) rfl) shapeCasts_S2000_S2000x1)
      broadcasts_S2000x1_S2000x40)) (ix2 r k)
      = Ideal.exp (v (ix2 r k) - Cert.Spec.rowMax (fun q' => v (ix2 r q'))) := fun k =>
    (exp_sub_col v _ r k).trans (congrArg (fun z => Ideal.exp (v (ix2 r k) - z)) (rowMax_v v r))
  have hS' := hS.trans (Finset.sum_congr rfl fun k _ => hE k)
  show v (ix2 r q) - (_ + Ideal.log _) = _
  rw [hS', rowMax_v]
  rfl

/-- The stored block at row r, column q: the log-softmax of the block's row plus the bias row. -/
theorem pay_apply (x0 : Vec Ideal S2000x40 .f32) (x2 : Vec Ideal S1x40 .f32) (r : Fin 2000) (q : Fin 40) :
    k2_pay1 x0 x2 (ix2 r q) = Cert.Spec.lsm (fun q' => x0 (ix2 r q') + x2 (ix2 (0 : Fin 1) q')) q := by
  unfold k2_pay1
  refine (lsm_vec _ r q).trans ?_
  congr 1
  funext q'
  rw [addf_apply, shapeCast_self, broadcastTo_1b_ab_apply, shapeCast_self]

/-! ## From the blocks to the array -/

section Array
variable (V : (c : Dev nD) → (b : Ref sig .tc) → Buf (Elt Ideal) ((c : Thread nD τ).loc b))

/-- The input array of the region, as an array of extended reals. -/
abbrev inArr (c : Dev nD) : S50000x40.Idx → EReal := V c main_v37
/-- The bias row of the region, as an array of extended reals. -/
abbrev biasArr (c : Dev nD) : S1x40.Idx → EReal := V c main_v38

/-- What the output array holds at row n, column q: the log-softmax of row n of the input array plus the bias row. -/
def G (c : Dev nD) (n : Fin 50000) (q : Fin 40) : EReal :=
  Cert.Spec.lsm (fun q' : Fin 40 => inArr V c (ix2 n q') + biasArr V c (ix2 (0 : Fin 1) q')) q

/-- The same as an array. -/
def Garr (c : Dev nD) : S50000x40.Idx → EReal := fun i => G V c (i 0) (i 1)

/-- The printed index maps, decided over the grid: the row-block windows sit at block t, the bias window at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of block t is row 2000·t + p of the array. -/
def rowOf (t : Fin cfg2.N) (p : Fin 2000) : Fin 50000 :=
  ⟨2000 * t.val + p.val, by have hN : cfg2.N = 25 := N_2; have := t.isLt; have := p.isLt; omega⟩

/-- Where entry (p, q) of the input block at point t sits in the input array. -/
theorem emb0 (t : Fin cfg2.N) (p : Fin 2000) (q : Fin 40) :
    ((cfg2.win 0).blk t).view.emb (ix2 p q) = ix2 (rowOf t p) q := by
  obtain ⟨e0, e1, -, -, -, -⟩ := idx_facts t
  funext a; apply Fin.ext
  match a with
  | ⟨0, _⟩ => show win2_0.index t (0 : Fin 2) * 2000 + 1 * p.val = 2000 * t.val + p.val; rw [e0]; omega
  | ⟨1, _⟩ => show win2_0.index t (1 : Fin 2) * 40 + 1 * q.val = q.val; rw [e1]; omega

/-- Where entry (0, q) of the bias block sits in the bias array. -/
theorem emb1 (t : Fin cfg2.N) (q : Fin 40) :
    ((cfg2.win 1).blk t).view.emb (ix2 (0 : Fin 1) q) = ix2 (0 : Fin 1) q := by
  obtain ⟨-, -, e2, e3, -, -⟩ := idx_facts t
  funext a; apply Fin.ext
  match a with
  | ⟨0, _⟩ => show win2_1.index t (0 : Fin 2) * 1 + 1 * 0 = 0; rw [e2]
  | ⟨1, _⟩ => show win2_1.index t (1 : Fin 2) * 40 + 1 * q.val = q.val; rw [e3]; omega

/-- Where entry (p, q) of the output block at point t sits in the output array. -/
theorem emb2 (t : Fin cfg2.N) (p : Fin 2000) (q : Fin 40) :
    ((cfg2.win 2).blk t).view.emb (ix2 p q) = ix2 (rowOf t p) q := by
  obtain ⟨-, -, -, -, e4, e5⟩ := idx_facts t
  funext a; apply Fin.ext
  match a with
  | ⟨0, _⟩ => show win2_2.index t (0 : Fin 2) * 2000 + 1 * p.val = 2000 * t.val + p.val; rw [e4]; omega
  | ⟨1, _⟩ => show win2_2.index t (1 : Fin 2) * 40 + 1 * q.val = q.val; rw [e5]; omega

/-- WHAT POINT t WRITES BACK is block t of the array G. -/
theorem flushed_eq (c : Dev nD) (t : Fin cfg2.N) :
    (dat2 (F := Ideal) V c).flushed 2 t = ((cfg2.win 2).blk t).view.read (Elt Ideal) (Garr V c) := by
  show (cfg2.win 2).cut (grid2.coords t) ((dat2 V c).after 2 t) = _
  rw [after2_2]
  unfold out2_2
  rw [View.canon_unit_zero hz]
  simp only [View.ld_unit_zero (S := S2000x40) hz, View.ld_unit_zero (S := S1x40) hz]
  funext y
  obtain ⟨p, q, rfl⟩ : ∃ (p : Fin 2000) (q : Fin 40), y = ix2 p q := ⟨y 0, y 1, eq_ix2 y⟩
  show k2_pay1 (iblk2 V c 0 t) (iblk2 V c 1 t) (ix2 p q) = Garr V c (((cfg2.win 2).blk t).view.emb (ix2 p q))
  refine (pay_apply _ _ p q).trans ?_
  rw [emb2]
  show _ = G V c (rowOf t p) q
  unfold G
  congr 1
  funext q'
  show inArr V c (((cfg2.win 0).blk t).view.emb (ix2 p q')) + biasArr V c (((cfg2.win 1).blk t).view.emb (ix2 (0 : Fin 1) q')) = _
  rw [emb0, emb1]

/-- An index of the array is in point t's block iff each coordinate is in the block's range on its axis. -/
theorem mem_blk (t : Fin cfg2.N) (i : S50000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v39).slice (win2_2.rect t)).set ↔ _
  rw [View.set_slice_whole, Rect.mem_set_unit]
  exact Iff.rfl

/-- The 25 row blocks cover the array: row n is in the block of point n / 2000. -/
theorem cover (i : S50000x40.Idx) :
    ∃ t : Fin cfg2.N, (cfg2.win 2).flush t = true ∧ i ∈ ((cfg2.win 2).blk t).view.set := by
  have hN : cfg2.N = 25 := N_2
  have hi0 : (i 0).val < 50000 := (i 0).isLt
  have hi1 : (i 1).val < 40 := (i 1).isLt
  let t : Fin cfg2.N := ⟨(i 0).val / 2000, by rw [hN]; omega⟩
  have ht : t.val = (i 0).val / 2000 := rfl
  refine ⟨t, flush2_2 t, ?_⟩
  obtain ⟨-, -, -, -, e4, e5⟩ := idx_facts t
  rw [mem_blk]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 40 ≤ (i 1).val ∧ (i 1).val < win2_2.index t (1 : Fin 2) * 40 + 40
    rw [e5]; omega

/-- THE ARRAY after the region: the log-softmax of each biased row of the input array, entry by entry. -/
theorem final2 (c : Dev nD) :
    (dat2 (F := Ideal) V c).arrAt 2 cfg2.N = Garr V c :=
  (dat2 (F := Ideal) V c).arrAt_eq_of_cover 2 (Garr V c) (fun t _ => flushed_eq V c t) cover

end Array

end Cert.KernelIdeal.HandC

end
-- ==== Proof.KernelHost.lean ====
/-
  The host operations between the regions, and the kernel program's two results as functions of its arguments.

  Before the first region the host recasts two weight arrays and turns two bias vectors into one-row arrays. Between
  the first and the second region it aggregates the 256-wide projections array over the graph — gather the source rows,
  scale each by its edge's weight, add into the destination rows of an array of zeros —, cuts the third weight array
  into its upper and lower 128 rows and turns two bias vectors into rows. Between the second and the third region it
  aggregates the 40-wide array the same way and turns the last bias into a row. A column of the aggregated array depends
  on the same column of the operand only, so the left half of the aggregated 256-wide array is the aggregation of the
  second layer's projection and the right half that of the first layer's: the kernel program's hidden activations are
  the specification's, and so are its logits and its two results.
-/
import proofs.«138230_j33535104647614_2_alg».proof.Proof.Gen.KernelIdeal.Frame
import proofs.«138230_j33535104647614_2_alg».proof.Proof.Spec
import proofs.«138230_j33535104647614_2_alg».proof.Proof.LibAggregate
import proofs.«138230_j33535104647614_2_alg».proof.Proof.KernelA
import proofs.«138230_j33535104647614_2_alg».proof.Proof.KernelB
import proofs.«138230_j33535104647614_2_alg».proof.Proof.KernelC
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HandH

open Cert.KernelIdeal Cert.KernelIdeal.Gen
open Idealize.ShloMosaic Idealize.ShloMosaic.TcCoe Idealize.SL.Sem Idealize.ShloMosaic.ValueIdx Idealize.ShloMosaic.StableHlo
open Cert.LibColumns

/-! ## The edge columns and the two aggregations, as the host spells them -/

/-- The edge weights as a column. -/
def edgeW (a3 : FVec Ideal S600000 .f32) : Cert.Spec.Arr2 600000 1 :=
  broadcastInDim S600000x1 ![0] bcast_S600000_S600000x1_0 a3

/-- The destination indices as a column. -/
def dstCol (a2 : IVec S600000 32) : Cert.Spec.EdgeIdx :=
  broadcastInDim S600000x1 ![0] bcast_S600000_S600000x1_0 a2

/-- The source indices, a negative one moved up by the number of rows, as a column. -/
def srcCol (a1 : IVec S600000 32) : Cert.Spec.EdgeIdx :=
  broadcastInDim S600000x1 ![0] bcast_S600000_S600000x1_0
    (select (cmpi .slt a1 (broadcastInDim S600000 ![] bcast_S_S600000 (constantI S_ 32 0#32)))
      (addi a1 (broadcastInDim S600000 ![] bcast_S_S600000 (constantI S_ 32 50000#32))) a1)

/-- The aggregation of a 256-wide array over the graph. -/
def spmm256 (a3 : FVec Ideal S600000 .f32) (a1 a2 : IVec S600000 32) (Y : FVec Ideal S50000x256 .f32) : FVec Ideal S50000x256 .f32 :=
  Host.scatterAdd scatter_S50000x256_S600000x1_S600000x256_1_0_0_1
    (broadcastInDim S50000x256 ![] bcast_S_S50000x256 (constant S_ .f32 0x00000000#32)) (dstCol a2)
    (mulf (broadcastInDim S600000x256 ![0, 1] bcast_S600000x1_S600000x256_0_1 (edgeW a3))
      (Host.gather gather_S50000x256_S600000x1_S600000x256_1_0_n_n_0_1_1256 Y (srcCol a1)))

/-- The aggregation of a 40-wide array over the graph. -/
def spmm40 (a3 : FVec Ideal S600000 .f32) (a1 a2 : IVec S600000 32) (Y : FVec Ideal S50000x40 .f32) : FVec Ideal S50000x40 .f32 :=
  Host.scatterAdd scatter_S50000x40_S600000x1_S600000x40_1_0_0_1
    (broadcastInDim S50000x40 ![] bcast_S_S50000x40 (constant S_ .f32 0x00000000#32)) (dstCol a2)
    (mulf (broadcastInDim S600000x40 ![0, 1] bcast_S600000x1_S600000x40_0_1 (edgeW a3))
      (Host.gather gather_S50000x40_S600000x1_S600000x40_1_0_n_n_0_1_140 Y (srcCol a1)))

/-- Entry (n, f) of the 256-wide aggregation: the specification's aggregation of column f. -/
theorem spmm256_apply (a3 : FVec Ideal S600000 .f32) (a1 a2 : IVec S600000 32) (Y : FVec Ideal S50000x256 .f32)
    (n : Fin 50000) (f : Fin 256) :
    spmm256 a3 a1 a2 Y (ix2 n f) = Cert.Spec.agg (edgeW a3) (srcCol a1) (dstCol a2) (fun p => Y (ix2 p f)) n :=
  Cert.LibAggregate.aggregate_apply (N := 50000) (E := 600000) (C := 256) (by decide)
    scatter_S50000x256_S600000x1_S600000x256_1_0_0_1_wf gather_S50000x256_S600000x1_S600000x256_1_0_n_n_0_1_1256_wf
    bcast_S600000x1_S600000x256_0_1 _ (fun i => Cert.LibAggregate.zeros_apply bcast_S_S50000x256 i)
    (edgeW a3) (srcCol a1) (dstCol a2) Y n f

/-- Entry (n, f) of the 40-wide aggregation. -/
theorem spmm40_apply (a3 : FVec Ideal S600000 .f32) (a1 a2 : IVec S600000 32) (Y : FVec Ideal S50000x40 .f32)
    (n : Fin 50000) (f : Fin 40) :
    spmm40 a3 a1 a2 Y (ix2 n f) = Cert.Spec.agg (edgeW a3) (srcCol a1) (dstCol a2) (fun p => Y (ix2 p f)) n :=
  Cert.LibAggregate.aggregate_apply (N := 50000) (E := 600000) (C := 40) (by decide)
    scatter_S50000x40_S600000x1_S600000x40_1_0_0_1_wf gather_S50000x40_S600000x1_S600000x40_1_0_n_n_0_1_140_wf
    bcast_S600000x1_S600000x40_0_1 _ (fun i => Cert.LibAggregate.zeros_apply bcast_S_S50000x40 i)
    (edgeW a3) (srcCol a1) (dstCol a2) Y n f

/-! ## What each boundary of the run holds -/

variable (m : (ℓ : Loc nD τ sig) → Buf (Elt Ideal) ℓ) (ρ : Dev nD → PrngReg)

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_arg1 m ρ c

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_arg2 m ρ c

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_arg3 m ρ c

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W2_arg13 m ρ c

/-! ### Entering the first region -/

theorem V1_arg0 (c : Dev nD) : V1 m ρ c main_arg0 = (m ((c : Thread nD τ).loc main_arg0)) := by
  show StableHlo.after hostOps0 (W0 m ρ c) (Proc.devRef .tc main_arg0) = _
  after_results
theorem V1_arg4 (c : Dev nD) : V1 m ρ c main_arg4 = (m ((c : Thread nD τ).loc main_arg4)) := by
  show StableHlo.after hostOps0 (W0 m ρ c) (Proc.devRef .tc main_arg4) = _
  after_results
theorem V1_arg6 (c : Dev nD) : V1 m ρ c main_arg6 = (m ((c : Thread nD τ).loc main_arg6)) := by
  show StableHlo.after hostOps0 (W0 m ρ c) (Proc.devRef .tc main_arg6) = _
  after_results
theorem V1_v0 (c : Dev nD) : V1 m ρ c main_v0 = (m ((c : Thread nD τ).loc main_arg8)) := by
  show StableHlo.after hostOps0 (W0 m ρ c) (Proc.devRef .tc main_v0) = _
  after_results; rfl
theorem V1_v1 (c : Dev nD) : V1 m ρ c main_v1 = (m ((c : Thread nD τ).loc main_arg10)) := by
  show StableHlo.after hostOps0 (W0 m ρ c) (Proc.devRef .tc main_v1) = _
  after_results; rfl
theorem V1_v2 (c : Dev nD) : V1 m ρ c main_v2 = shapeCast S1x128 (m ((c : Thread nD τ).loc main_arg5)) shapeCasts_S128_S1x128 := by
  show StableHlo.after hostOps0 (W0 m ρ c) (Proc.devRef .tc main_v2) = _
  after_results; rfl
theorem V1_v3 (c : Dev nD) : V1 m ρ c main_v3 = shapeCast S1x512 (m ((c : Thread nD τ).loc main_arg7)) shapeCasts_S512_S1x512 := by
  show StableHlo.after hostOps0 (W0 m ρ c) (Proc.devRef .tc main_v3) = _
  after_results; rfl

/-- A bias vector turned into a row and read back as a vector is the vector. -/
theorem row1_shapeCast {n : Nat} (v : (⟨1, ![n]⟩ : Shape).Idx → EReal) (h : (⟨1, ![n]⟩ : Shape).ShapeCasts ⟨2, ![1, n]⟩) :
    Cert.KernelIdeal.HandA.row1 (shapeCast ⟨2, ![1, n]⟩ v h) = v := by
  funext i
  obtain ⟨k, rfl⟩ : ∃ k : Fin n, i = ix1 k := ⟨i 0, eq_ix1 i⟩
  exact shapeCast_a_1a_apply v h (0 : Fin 1) k

/-! ### The projections array, and entering the second region -/

theorem W2_v4_1 (c : Dev nD) :
    W2 m ρ c (Proc.devRef .tc main_v4_1)
      = Cert.KernelIdeal.HandA.ycatArr (m ((c : Thread nD τ).loc main_arg0)) (m ((c : Thread nD τ).loc main_arg4)) (m ((c : Thread nD τ).loc main_arg5)) (m ((c : Thread nD τ).loc main_arg8)) (m ((c : Thread nD τ).loc main_arg10)) :=
  (W2_arr m ρ c 8).trans ((Cert.KernelIdeal.HandA.final8 (V1 m ρ) c).trans (by
    rw [V1_arg0, V1_arg4, V1_v2, V1_v0, V1_v1, row1_shapeCast]))

set_option maxHeartbeats 4000000 in
theorem V3_v17_raw (c : Dev nD) :
    V3 m ρ c main_v17 = spmm256 (W2 m ρ c (Proc.devRef .tc main_arg3)) (W2 m ρ c (Proc.devRef .tc main_arg1))
      (W2 m ρ c (Proc.devRef .tc main_arg2)) (W2 m ρ c (Proc.devRef .tc main_v4_1)) := by
  show StableHlo.after hostOps1 (W2 m ρ c) (Proc.devRef .tc main_v17) = _
  after_results_simp
  rfl

/-- The aggregated array the second region reads. -/
theorem V3_v17 (c : Dev nD) :
    V3 m ρ c main_v17 = spmm256 (m ((c : Thread nD τ).loc main_arg3)) (m ((c : Thread nD τ).loc main_arg1)) (m ((c : Thread nD τ).loc main_arg2))
      (Cert.KernelIdeal.HandA.ycatArr (m ((c : Thread nD τ).loc main_arg0)) (m ((c : Thread nD τ).loc main_arg4)) (m ((c : Thread nD τ).loc main_arg5)) (m ((c : Thread nD τ).loc main_arg8)) (m ((c : Thread nD τ).loc main_arg10))) := by
  rw [V3_v17_raw, W2_arg3, W2_arg1, W2_arg2, W2_v4_1]

set_option maxHeartbeats 4000000 in
theorem V3_v22 (c : Dev nD) : V3 m ρ c main_v22 = shapeCast S1x128 (m ((c : Thread nD τ).loc main_arg11)) shapeCasts_S128_S1x128 := by
  show StableHlo.after hostOps1 (W2 m ρ c) (Proc.devRef .tc main_v22) = _
  after_results_simp
  rw [W2_arg11]; rfl

set_option maxHeartbeats 4000000 in
theorem V3_v23 (c : Dev nD) : V3 m ρ c main_v23 = shapeCast S1x128 (m ((c : Thread nD τ).loc main_arg9)) shapeCasts_S128_S1x128 := by
  show StableHlo.after hostOps1 (W2 m ρ c) (Proc.devRef .tc main_v23) = _
  after_results_simp
  rw [W2_arg9]; rfl

set_option maxHeartbeats 4000000 in
theorem V3_v19 (c : Dev nD) :
    V3 m ρ c main_v19 = extractStridedSlice S128x40 ![0, 0] (m ((c : Thread nD τ).loc main_arg12)) slices_S256x40_S128x40_0_0 := by
  show StableHlo.after hostOps1 (W2 m ρ c) (Proc.devRef .tc main_v19) = _
  after_results_simp
  rw [W2_arg12]; rfl

set_option maxHeartbeats 4000000 in
theorem V3_v21 (c : Dev nD) :
    V3 m ρ c main_v21 = extractStridedSlice S128x40 ![128, 0] (m ((c : Thread nD τ).loc main_arg12)) slices_S256x40_S128x40_128_0 := by
  show StableHlo.after hostOps1 (W2 m ρ c) (Proc.devRef .tc main_v21) = _
  after_results_simp
  rw [W2_arg12]; rfl

/-! ### The third projection's array, and entering the third region -/

theorem W4_v24 (c : Dev nD) :
    W4 m ρ c (Proc.devRef .tc main_v24)
      = Cert.KernelIdeal.HandB.proj3Arr (V3 m ρ c main_v17) (V3 m ρ c main_v22) (V3 m ρ c main_v23) (V3 m ρ c main_v19) (V3 m ρ c main_v21) :=
  (W4_arr m ρ c 5).trans (Cert.KernelIdeal.HandB.final5 (V3 m ρ) c)

set_option maxHeartbeats 4000000 in
theorem V5_v37_raw (c : Dev nD) :
    V5 m ρ c main_v37 = spmm40 (W4 m ρ c (Proc.devRef .tc main_arg3)) (W4 m ρ c (Proc.devRef .tc main_arg1))
      (W4 m ρ c (Proc.devRef .tc main_arg2)) (W4 m ρ c (Proc.devRef .tc main_v24)) := by
  show StableHlo.after hostOps2 (W4 m ρ c) (Proc.devRef .tc main_v37) = _
  after_results_simp
  rfl

set_option maxHeartbeats 4000000 in
theorem V5_v38 (c : Dev nD) : V5 m ρ c main_v38 = shapeCast S1x40 (m ((c : Thread nD τ).loc main_arg13)) shapeCasts_S40_S1x40 := by
  show StableHlo.after hostOps2 (W4 m ρ c) (Proc.devRef .tc main_v38) = _
  after_results_simp
  rw [W4_arg13]; rfl

/-! ## The kernel program's hidden activations and logits are the specification's -/

section Links

variable (X : FVec Ideal S50000x512 .f32) (EW : FVec Ideal S512x128 .f32) (EB : FVec Ideal S128 .f32)
  (W1 : FVec Ideal S128x128 .f32) (B1 : FVec Ideal S128 .f32) (W2 : FVec Ideal S512x128 .f32) (B2 : FVec Ideal S128 .f32)
  (W3 : FVec Ideal S256x40 .f32) (B3 : FVec Ideal S40 .f32) (a3 : FVec Ideal S600000 .f32) (a1 a2 : IVec S600000 32)

open Cert.KernelIdeal.HandA Cert.KernelIdeal.HandB

/-- A left-half column of the projections array is the second layer's projection. -/
theorem ycat_lo (p : Fin 50000) (k : Fin 128) : ycatArr X EW EB W1 W2 (ix2 p (lo k)) = Cert.Spec.proj2 X W2 p k := by
  show ycat X EW EB W1 W2 p (lo k) = _
  unfold ycat
  rw [dif_pos (show (lo k).val < 128 from k.isLt)]
  rfl

/-- A right-half column of the projections array is the first layer's projection. -/
theorem ycat_hi (p : Fin 50000) (k : Fin 128) : ycatArr X EW EB W1 W2 (ix2 p (hi k)) = Cert.Spec.proj1 X EW EB W1 p k := by
  show ycat X EW EB W1 W2 p (hi k) = _
  unfold ycat
  rw [dif_neg (show ¬ (hi k).val < 128 from by show ¬ (128 + k.val < 128); omega)]
  exact congrArg (Cert.Spec.proj1 X EW EB W1 p) (Fin.ext (by show 128 + k.val - 128 = k.val; omega))

theorem slice_top (k : Fin 128) (q : Fin 40) :
    extractStridedSlice S128x40 ![0, 0] W3 slices_S256x40_S128x40_0_0 (ix2 k q) = W3 (ix2 (lo k) q) :=
  extractStridedSlice_apply ![0, 0] W3 _ (ix2 k q) (ix2 (lo k) q) fun a => by
    match a with
    | ⟨0, _⟩ => exact (Nat.zero_add _).symm
    | ⟨1, _⟩ => exact (Nat.zero_add _).symm

theorem slice_bot (k : Fin 128) (q : Fin 40) :
    extractStridedSlice S128x40 ![128, 0] W3 slices_S256x40_S128x40_128_0 (ix2 k q) = W3 (ix2 (hi k) q) :=
  extractStridedSlice_apply ![128, 0] W3 _ (ix2 k q) (ix2 (hi k) q) fun a => by
    match a with
    | ⟨0, _⟩ => rfl
    | ⟨1, _⟩ => exact (Nat.zero_add _).symm

/-- The third projection the kernel computes from the aggregated projections array is the specification's. -/
theorem proj3_link (p : Fin 50000) (q : Fin 40) :
    proj3' (spmm256 a3 a1 a2 (ycatArr X EW EB W1 W2)) (shapeCast S1x128 B2 shapeCasts_S128_S1x128)
        (shapeCast S1x128 B1 shapeCasts_S128_S1x128)
        (extractStridedSlice S128x40 ![0, 0] W3 slices_S256x40_S128x40_0_0)
        (extractStridedSlice S128x40 ![128, 0] W3 slices_S256x40_S128x40_128_0) p q
      = Cert.Spec.proj3 (Cert.Spec.hid2 X W2 B2 (edgeW a3) (srcCol a1) (dstCol a2))
          (Cert.Spec.hid1 X EW EB W1 B1 (edgeW a3) (srcCol a1) (dstCol a2)) W3 p q := by
  unfold proj3' Cert.Spec.proj3
  refine congrArg₂ (fun a b : EReal => a + b) ?_ ?_
  · refine Finset.sum_congr rfl fun k _ => ?_
    rw [spmm256_apply, shapeCast_a_1a_apply, slice_top]
    unfold Cert.Spec.hid2
    rw [show (fun p' => ycatArr X EW EB W1 W2 (ix2 p' (lo k))) = fun p' => Cert.Spec.proj2 X W2 p' k from
      funext fun p' => ycat_lo X EW EB W1 W2 p' k]
    rfl
  · refine Finset.sum_congr rfl fun k _ => ?_
    rw [spmm256_apply, shapeCast_a_1a_apply, slice_bot]
    unfold Cert.Spec.hid1
    rw [show (fun p' => ycatArr X EW EB W1 W2 (ix2 p' (hi k))) = fun p' => Cert.Spec.proj1 X EW EB W1 p' k from
      funext fun p' => ycat_hi X EW EB W1 W2 p' k]
    rfl

/-- The kernel program's logits are the specification's. -/
theorem logits_link (n : Fin 50000) (q : Fin 40) :
    spmm40 a3 a1 a2 (proj3Arr (spmm256 a3 a1 a2 (ycatArr X EW EB W1 W2)) (shapeCast S1x128 B2 shapeCasts_S128_S1x128)
          (shapeCast S1x128 B1 shapeCasts_S128_S1x128)
          (extractStridedSlice S128x40 ![0, 0] W3 slices_S256x40_S128x40_0_0)
          (extractStridedSlice S128x40 ![128, 0] W3 slices_S256x40_S128x40_128_0)) (ix2 n q)
        + shapeCast S1x40 B3 shapeCasts_S40_S1x40 (ix2 (0 : Fin 1) q)
      = Cert.Spec.logits X EW EB W1 B1 W2 B2 W3 B3 (edgeW a3) (srcCol a1) (dstCol a2) n q := by
  rw [spmm40_apply, shapeCast_a_1a_apply]
  unfold Cert.Spec.logits Cert.Spec.logit
  refine congrArg (fun Y => Cert.Spec.agg (edgeW a3) (srcCol a1) (dstCol a2) Y n + B3 (ix1 q)) (funext fun p => ?_)
  exact proj3_link X EW EB W1 B1 W2 B2 W3 a3 a1 a2 p q

end Links

/-! ## The two results -/

/-- THE RECONSTRUCTION RESULT at the end of the run. -/
theorem result_rec (c : Dev nD) :
    W6 m ρ c (Proc.devRef .tc main_v4_0) = Cert.Spec.recArr (m ((c : Thread nD τ).loc main_arg0)) (m ((c : Thread nD τ).loc main_arg4)) (m ((c : Thread nD τ).loc main_arg5)) (m ((c : Thread nD τ).loc main_arg6)) (m ((c : Thread nD τ).loc main_arg7)) :=
  calc W6 m ρ c (Proc.devRef .tc main_v4_0)
    _ = W5 m ρ c (Proc.devRef .tc main_v4_0) := W6_of_ne m ρ c main_v4_0 (by decide)
    _ = W4 m ρ c (Proc.devRef .tc main_v4_0) := StableHlo.after_of_forall_not_mem (b := Proc.devRef .tc main_v4_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v4_0) := W4_of_ne m ρ c main_v4_0 (by decide)
    _ = W2 m ρ c (Proc.devRef .tc main_v4_0) := StableHlo.after_of_forall_not_mem (b := Proc.devRef .tc main_v4_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 7 cfg0.N := W2_arr m ρ c 7
    _ = _ := Cert.KernelIdeal.HandA.final7 (V1 m ρ) c
    _ = Cert.Spec.recArr (m ((c : Thread nD τ).loc main_arg0)) (m ((c : Thread nD τ).loc main_arg4)) (m ((c : Thread nD τ).loc main_arg5)) (m ((c : Thread nD τ).loc main_arg6)) (m ((c : Thread nD τ).loc main_arg7)) := by
      rw [V1_arg0, V1_arg4, V1_v2, V1_arg6, V1_v3, row1_shapeCast, row1_shapeCast]

/-- THE LOG-SOFTMAX RESULT at the end of the run. -/
theorem result_out (c : Dev nD) :
    W6 m ρ c (Proc.devRef .tc main_v39)
      = Cert.Spec.outArr (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
          (edgeW (m ((c : Thread nD τ).loc main_arg3))) (srcCol (m ((c : Thread nD τ).loc main_arg1))) (dstCol (m ((c : Thread nD τ).loc main_arg2))) := by
  refine (W6_arr m ρ c 2).trans ((Cert.KernelIdeal.HandC.final2 (V5 m ρ) c).trans ?_)
  funext i
  show Cert.Spec.lsm (fun q' : Fin 40 => Cert.KernelIdeal.HandC.inArr (V5 m ρ) c (ix2 (i 0) q')
      + Cert.KernelIdeal.HandC.biasArr (V5 m ρ) c (ix2 (0 : Fin 1) q')) (i 1) = Cert.Spec.lsm _ (i 1)
  refine congrArg (fun L => Cert.Spec.lsm L (i 1)) (funext fun q' => ?_)
  unfold Cert.KernelIdeal.HandC.inArr Cert.KernelIdeal.HandC.biasArr
  rw [V5_v37_raw, W4_arg3, W4_arg1, W4_arg2, W4_v24, V3_v17, V3_v22, V3_v23, V3_v19, V3_v21, V5_v38]
  exact logits_link _ _ _ _ _ _ _ _ _ _ _ _ (i 0) q'

end Cert.KernelIdeal.HandH

end
-- ==== Proof.RefTerm.lean ====
/-
  The reference program's two results as functions of its fourteen arguments.

  refOut is the composed term of the operations that produce the first result (the log-softmax output), refRec the one
  that produces the second (the reconstruction), each argument a variable.
-/
import proofs.«138230_j33535104647614_2_alg».proof.ReferenceIdeal
import proofs.«138230_j33535104647614_2_alg».proof.Proof.Gen.ReferenceIdeal
import Idealize.ShloMosaic.PureOps.Ideal

noncomputable section

namespace Cert.ReferenceIdeal.RefValue

open Cert.ReferenceIdeal Cert.ReferenceIdeal.Gen Idealize.ShloMosaic

set_option maxRecDepth 8192 in
/-- The first result's composed term. -/
def refOut (a0 : FVec Ideal S50000x512 .f32) (a1 a2 : IVec S600000 32) (a3 : FVec Ideal S600000 .f32) (a4 : FVec Ideal S512x128 .f32) (a5 : FVec Ideal S128 .f32) (a6 : FVec Ideal S128x512 .f32) (a7 : FVec Ideal S512 .f32) (a8 : FVec Ideal S128x128 .f32) (a9 : FVec Ideal S128 .f32) (a10 : FVec Ideal S512x128 .f32) (a11 : FVec Ideal S128 .f32) (a12 : FVec Ideal S256x40 .f32) (a13 : FVec Ideal S40 .f32) : FVec Ideal S50000x40 .f32 :=
  subf (subf (addf (Host.scatterAdd scatter_S50000x40_S600000x1_S600000x40_1_0_0_1 (broadcastInDim S50000x40 ![] bcast_S_S50000x40 (constant S_ .f32 0x00000000#32)) (broadcastInDim S600000x1 ![0] bcast_S600000_S600000x1_0 a2) (mulf (broadcastInDim S600000x40 ![0, 1] bcast_S600000x1_S600000x40_0_1 (broadcastInDim S600000x1 ![0] bcast_S600000_S600000x1_0 a3)) (Host.gather gather_S50000x40_S600000x1_S600000x40_1_0_n_n_0_1_140 (Host.dotGeneral dot_S50000x256_S256x40_S50000x40_1_0_0_1_n_n none (select (cmpf .ogt (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1) (broadcastInDim S50000x256 ![] bcast_S_S50000x256 (constant S_ .f32 0x00000000#32))) (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1) (mulf (broadcastInDim S50000x256 ![] bcast_S_S50000x256 (constant S_ .f32 0x3DCCCCCD#32)) (Host.expm1 (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1)))) a12) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x40 ![0, 1] bcast_S1x40_S50000x40_0_1 (broadcastInDim S1x40 ![1] bcast_S40_S1x40_1 a13))) (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf (addf (Host.scatterAdd scatter_S50000x40_S600000x1_S600000x40_1_0_0_1 (broadcastInDim S50000x40 ![] bcast_S_S50000x40 (constant S_ .f32 0x00000000#32)) (broadcastInDim S600000x1 ![0] bcast_S600000_S600000x1_0 a2) (mulf (broadcastInDim S600000x40 ![0, 1] bcast_S600000x1_S600000x40_0_1 (broadcastInDim S600000x1 ![0] bcast_S600000_S600000x1_0 a3)) (Host.gather gather_S50000x40_S600000x1_S600000x40_1_0_n_n_0_1_140 (Host.dotGeneral dot_S50000x256_S256x40_S50000x40_1_0_0_1_n_n none (select (cmpf .ogt (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1) (broadcastInDim S50000x256 ![] bcast_S_S50000x256 (constant S_ .f32 0x00000000#32))) (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1) (mulf (broadcastInDim S50000x256 ![] bcast_S_S50000x256 (constant S_ .f32 0x3DCCCCCD#32)) (Host.expm1 (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1)))) a12) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x40 ![0, 1] bcast_S1x40_S50000x40_0_1 (broadcastInDim S1x40 ![1] bcast_S40_S1x40_1 a13))) (constant S_ .f32 0xFF800000#32) reducesTo_S50000x40_S50000_d1 h_S_))))) (broadcastInDim S50000x40 ![0, 1] bcast_S50000x1_S50000x40_0_1 (Host.log (broadcastInDim S50000x1 ![0] bcast_S50000_S50000x1_0 (Host.reduceAdd (Host.exp (subf (addf (Host.scatterAdd scatter_S50000x40_S600000x1_S600000x40_1_0_0_1 (broadcastInDim S50000x40 ![] bcast_S_S50000x40 (constant S_ .f32 0x00000000#32)) (broadcastInDim S600000x1 ![0] bcast_S600000_S600000x1_0 a2) (mulf (broadcastInDim S600000x40 ![0, 1] bcast_S600000x1_S600000x40_0_1 (broadcastInDim S600000x1 ![0] bcast_S600000_S600000x1_0 a3)) (Host.gather gather_S50000x40_S600000x1_S600000x40_1_0_n_n_0_1_140 (Host.dotGeneral dot_S50000x256_S256x40_S50000x40_1_0_0_1_n_n none (select (cmpf .ogt (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1) (broadcastInDim S50000x256 ![] bcast_S_S50000x256 (constant S_ .f32 0x00000000#32))) (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1) (mulf (broadcastInDim S50000x256 ![] bcast_S_S50000x256 (constant S_ .f32 0x3DCCCCCD#32)) (Host.expm1 (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1)))) a12) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x40 ![0, 1] bcast_S1x40_S50000x40_0_1 (broadcastInDim S1x40 ![1] bcast_S40_S1x40_1 a13))) (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf (addf (Host.scatterAdd scatter_S50000x40_S600000x1_S600000x40_1_0_0_1 (broadcastInDim S50000x40 ![] bcast_S_S50000x40 (constant S_ .f32 0x00000000#32)) (broadcastInDim S600000x1 ![0] bcast_S600000_S600000x1_0 a2) (mulf (broadcastInDim S600000x40 ![0, 1] bcast_S600000x1_S600000x40_0_1 (broadcastInDim S600000x1 ![0] bcast_S600000_S600000x1_0 a3)) (Host.gather gather_S50000x40_S600000x1_S600000x40_1_0_n_n_0_1_140 (Host.dotGeneral dot_S50000x256_S256x40_S50000x40_1_0_0_1_n_n none (select (cmpf .ogt (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1) (broadcastInDim S50000x256 ![] bcast_S_S50000x256 (constant S_ .f32 0x00000000#32))) (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1) (mulf (broadcastInDim S50000x256 ![] bcast_S_S50000x256 (constant S_ .f32 0x3DCCCCCD#32)) (Host.expm1 (concatenate S50000x256 1 [⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x512_S512x128_S50000x128_1_0_0_1_n_n none a0 a10) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a11)))⟩, ⟨S50000x128, (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 a2) (mulf (broadcastInDim S600000x128 ![0, 1] bcast_S600000x1_S600000x128_0_1 (broadcastInDim S600000x1 ![0] bcast_S600000_S600000x1_0 a3)) (Host.gather gather_S50000x128_S600000x1_S600000x128_1_0_n_n_0_1_1128 (Host.dotGeneral dot_S50000x128_S128x128_S50000x128_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a8) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x128 ![0, 1] bcast_S1x128_S50000x128_0_1 (broadcastInDim S1x128 ![1] bcast_S128_S1x128_1 a9)))⟩] concatenates_S50000x128_S50000x128_S50000x256_d1)))) a12) (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))))) (broadcastInDim S50000x40 ![0, 1] bcast_S1x40_S50000x40_0_1 (broadcastInDim S1x40 ![1] bcast_S40_S1x40_1 a13))) (constant S_ .f32 0xFF800000#32) reducesTo_S50000x40_S50000_d1 h_S_)))))) (constant S_ .f32 0x00000000#32) reducesTo_S50000x40_S50000_d1 h_S_))))

/-- The second result's composed term. -/
def refRec (a0 : FVec Ideal S50000x512 .f32) (a4 : FVec Ideal S512x128 .f32) (a5 : FVec Ideal S128 .f32) (a6 : FVec Ideal S128x512 .f32) (a7 : FVec Ideal S512 .f32) : FVec Ideal S50000x512 .f32 :=
  addf (Host.dotGeneral dot_S50000x128_S128x512_S50000x512_1_0_0_1_n_n none (addf (Host.dotGeneral dot_S50000x512_S512x128_S50000x128_1_0_0_1_n_n none a0 a4) (broadcastInDim S50000x128 ![0, 1] bcast_S1x128_S50000x128_0_1 (broadcastInDim S1x128 ![1] bcast_S128_S1x128_1 a5))) a6) (broadcastInDim S50000x512 ![0, 1] bcast_S1x512_S50000x512_0_1 (broadcastInDim S1x512 ![1] bcast_S512_S1x512_1 a7))

end Cert.ReferenceIdeal.RefValue

end
-- ==== Proof.RefLayers.lean ====
/-
  The layers of the network read at an entry, for arrays given as variables.

  * A graph aggregation: the scatter-add, into the all-zero array, of the edge-weight column spread over the columns
    times the row gather of a per-node array Y, read at (n, f), is the sum over the edges whose destination index is n
    of the edge weight times Y at the edge's source row, column f.
  * A bias row: a vector of b entries spread to one row and then over a rows reads, at (p, q), its entry q.
  * The maximum of a row folded from minus infinity, and the maximum of minus infinity with such a fold; the sum of a row.
  * A plain matrix product of the host at (p, q): the sum over k of l(p, k) * r(k, q).
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«138230_j33535104647614_2_alg».proof.Proof.Spec
import proofs.«138230_j33535104647614_2_alg».proof.Proof.LibColumns
import proofs.«138230_j33535104647614_2_alg».proof.Proof.LibPlainDot

noncomputable section

namespace Cert.ReferenceIdeal.RefLayers

open Idealize.ShloMosaic Idealize.ShloMosaic.ValueIdx Cert.LibColumns Cert.LibPlainDot Cert.Spec
open scoped BigOperators

/-- The all-zero array a scatter-add starts from reads 0 everywhere. -/
theorem zeros_apply {t : Shape} (hz : (⟨0, ![]⟩ : Shape).BroadcastsInDim t (![] : Fin 0 → Fin t.rank)) (j : t.Idx) :
    broadcastInDim t ![] hz (constant (F := Ideal) ⟨0, ![]⟩ .f32 0x00000000#32) j = (0 : EReal) := by
  rw [broadcastInDim_apply _ hz _ j ix0 (fun a => a.elim0)]
  exact Ideal.ofBits_zero_f32

/-- The edge-weight column spread over C columns reads, at (e, f), the weight of edge e. -/
theorem column_apply {E C : Nat} {α : Type}
    (hb : (⟨2, ![E, 1]⟩ : Shape).BroadcastsInDim ⟨2, ![E, C]⟩ (![0, 1] : Fin 2 → Fin (⟨2, ![E, C]⟩ : Shape).rank))
    (A : (⟨2, ![E, 1]⟩ : Shape).Idx → α) (e : Fin E) (f : Fin C) :
    broadcastInDim ⟨2, ![E, C]⟩ ![0, 1] hb A (ix2 e f) = A (ix2 e (0 : Fin 1)) := by
  refine broadcastInDim_apply _ hb A (ix2 e f) (ix2 e (0 : Fin 1)) (fun a => ?_)
  match a with
  | ⟨0, _⟩ =>
    show e.val = if E = 1 then 0 else e.val
    split
    · have := e.isLt; omega
    · rfl
  | ⟨1, _⟩ => show 0 = if (1 : Nat) = 1 then 0 else f.val; rw [if_pos rfl]

/-- THE GRAPH AGGREGATION AT (n, f). -/
theorem agg_apply {C : Nat}
    (wfS : ScatterDims.WF ⟨2, ![50000, C]⟩ ⟨2, ![600000, 1]⟩ ⟨2, ![600000, C]⟩ [1] [0] [0] 1)
    (wfG : GatherDims.WF ⟨2, ![50000, C]⟩ ⟨2, ![600000, 1]⟩ ⟨2, ![600000, C]⟩ [1] [0] [] [0] [] 1 ![1, C])
    (hb : (⟨2, ![600000, 1]⟩ : Shape).BroadcastsInDim ⟨2, ![600000, C]⟩ (![0, 1] : Fin 2 → Fin (⟨2, ![600000, C]⟩ : Shape).rank))
    (hz : (⟨0, ![]⟩ : Shape).BroadcastsInDim ⟨2, ![50000, C]⟩ (![] : Fin 0 → Fin (⟨2, ![50000, C]⟩ : Shape).rank))
    (A : FVec Ideal ⟨2, ![600000, 1]⟩ .f32) (J I : IVec ⟨2, ![600000, 1]⟩ 32)
    (Y : FVec Ideal ⟨2, ![50000, C]⟩ .f32) (n : Fin 50000) (f : Fin C) :
    Host.scatterAdd (rowScatter 50000 600000 C wfS)
        (broadcastInDim ⟨2, ![50000, C]⟩ ![] hz (constant (F := Ideal) ⟨0, ![]⟩ .f32 0x00000000#32)) I
        (mulf (broadcastInDim ⟨2, ![600000, C]⟩ ![0, 1] hb A) (Host.gather (rowGather 50000 600000 C wfG) Y J)) (ix2 n f)
      = agg A J I (fun p => Y (ix2 p f)) n := by
  rw [scatterAdd_rows_apply, zeros_apply, zero_add]
  unfold agg
  refine Finset.sum_congr rfl fun e _ => ?_
  rw [mulf_apply, gather_rows_apply wfG J (by decide), column_apply]

/-- A bias vector spread to one row and then over the rows reads its entry q at (p, q). -/
theorem bias_apply {a b : Nat} {α : Type}
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (x : (⟨1, ![b]⟩ : Shape).Idx → α) (p : Fin a) (q : Fin b) :
    broadcastInDim ⟨2, ![a, b]⟩ ![0, 1] h2 (broadcastInDim ⟨2, ![1, b]⟩ ![1] h1 x) (ix2 p q) = x (ix1 q) := by
  rw [broadcastInDim_apply _ h2 _ (ix2 p q) (ix2 (0 : Fin 1) q) (fun c => by
    match c with
    | ⟨0, _⟩ => show 0 = if (1 : Nat) = 1 then 0 else p.val; rw [if_pos rfl]
    | ⟨1, _⟩ =>
      show q.val = if b = 1 then 0 else q.val
      split
      · have := q.isLt; omega
      · rfl)]
  refine broadcastInDim_apply _ h1 x (ix2 (0 : Fin 1) q) (ix1 q) (fun c => ?_)
  match c with
  | ⟨0, _⟩ =>
    show q.val = if b = 1 then 0 else q.val
    split
    · have := q.isLt; omega
    · rfl

/-- A vector of a entries spread to a column and then over b columns reads its entry p at (p, q). -/
theorem column_of_vector_apply {a b : Nat} {α : Type}
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (x : (⟨1, ![a]⟩ : Shape).Idx → α) (p : Fin a) (q : Fin b) :
    broadcastInDim ⟨2, ![a, b]⟩ ![0, 1] h2 (broadcastInDim ⟨2, ![a, 1]⟩ ![0] h1 x) (ix2 p q) = x (ix1 p) := by
  rw [column_apply h2]
  refine broadcastInDim_apply _ h1 x (ix2 p (0 : Fin 1)) (ix1 p) (fun c => ?_)
  match c with
  | ⟨0, _⟩ =>
    show p.val = if a = 1 then 0 else p.val
    split
    · have := p.isLt; omega
    · rfl

/-- A vector spread to a column reads its entry p at (p, 0). -/
theorem vector_column_apply {a : Nat} {α : Type}
    (h1 : (⟨1, ![a]⟩ : Shape).BroadcastsInDim ⟨2, ![a, 1]⟩ (![0] : Fin 1 → Fin (⟨2, ![a, 1]⟩ : Shape).rank))
    (x : (⟨1, ![a]⟩ : Shape).Idx → α) (p : Fin a) :
    broadcastInDim ⟨2, ![a, 1]⟩ ![0] h1 x (ix2 p (0 : Fin 1)) = x (ix1 p) := by
  refine broadcastInDim_apply _ h1 x (ix2 p (0 : Fin 1)) (ix1 p) (fun c => ?_)
  match c with
  | ⟨0, _⟩ =>
    show p.val = if a = 1 then 0 else p.val
    split
    · have := p.isLt; omega
    · rfl

/-- The maximum of the starting value with a fold of maxima from it is the fold. -/
theorem max_fold_self {ι : Type} (s : Finset ι) (b : EReal) (f : ι → EReal) :
    max b (s.fold max b f) = s.fold max b f :=
  max_eq_right ((Finset.le_fold_max b).2 (Or.inl le_rfl))

/-- A sum over 256 entries is the sum over the first 128 plus the sum over the last 128. -/
theorem sum_fin256 {M : Type} [AddCommMonoid M] (g : Fin 256 → M) :
    ∑ k : Fin 256, g k
      = (∑ k : Fin 128, g ⟨k.val, by omega⟩) + ∑ k : Fin 128, g ⟨128 + k.val, by omega⟩ :=
  Fin.sum_univ_add (a := 128) (b := 128) g

/-- From minus infinity, the reduction of a row of 40 entries with a maximum body is the row's maximum. -/
theorem rowMax_apply (x : FVec Ideal ⟨2, ![50000, 40]⟩ .f32)
    (h' : (⟨2, ![50000, 40]⟩ : Shape).ReducesTo [1] ⟨1, ![50000]⟩) (hu : 0 < (⟨0, ![]⟩ : Shape).numel) (p : Fin 50000) :
    Host.reduce FloatOps.maximumf x (constant (F := Ideal) ⟨0, ![]⟩ .f32 0xFF800000#32) h' hu (ix1 p)
      = rowMax (fun q => x (ix2 p q)) := by
  have h : (⟨2, ![50000, 40]⟩ : Shape).Reduces [1] ⟨1, ![50000]⟩ := by decide
  rw [Host.reduce_eq_fold_single FloatOps.maximumf x _ h' h hu]
  have hf : (x ∘ h.lift (ix1 p)) = fun q : Fin 40 => x (ix2 p q) := funext fun k => congrArg x (by
    funext c; apply Fin.ext; fin_cases c <;> rfl)
  unfold rowMax
  exact congrArg (fun f => Finset.fold max (Ideal.ofBits .f32 0xFF800000#32) f (Finset.univ : Finset (Fin 40))) hf

/-- From the zero word, the sum of a row of 40 entries. -/
theorem rowSum_apply (x : FVec Ideal ⟨2, ![50000, 40]⟩ .f32)
    (h' : (⟨2, ![50000, 40]⟩ : Shape).ReducesTo [1] ⟨1, ![50000]⟩) (hu : 0 < (⟨0, ![]⟩ : Shape).numel) (p : Fin 50000) :
    Host.reduceAdd x (constant (F := Ideal) ⟨0, ![]⟩ .f32 0x00000000#32) h' hu (ix1 p) = ∑ q : Fin 40, x (ix2 p q) := by
  have h : (⟨2, ![50000, 40]⟩ : Shape).Reduces [1] ⟨1, ![50000]⟩ := by decide
  simp only [Host.reduceAdd, Ideal.hostReduceAdd_def]
  rw [Ideal.hostReduceAdd_single h' h]
  have h0 : constant (F := Ideal) ⟨0, ![]⟩ .f32 0x00000000#32 (Shape.Idx.first hu) = (0 : EReal) := Ideal.ofBits_zero_f32
  rw [h0, zero_add]
  refine Finset.sum_congr rfl fun k _ => congrArg x ?_
  funext c; apply Fin.ext; fin_cases c <;> rfl

/-- A scalar constant spread over an array reads the constant's value everywhere. -/
theorem splat_apply {t : Shape} (hz : (⟨0, ![]⟩ : Shape).BroadcastsInDim t (![] : Fin 0 → Fin t.rank)) (w : BitVec 32) (j : t.Idx) :
    broadcastInDim t ![] hz (constant (F := Ideal) ⟨0, ![]⟩ .f32 w) j = Ideal.ofBits .f32 w :=
  broadcastInDim_apply _ hz _ j ix0 (fun a => a.elim0)

/-- THE HOST'S PLAIN PRODUCT AT (p, q): the sum over k of l(p, k) * r(k, q). -/
theorem hostDot_apply {R K C : Nat} (wf : DotDims.WF ⟨2, ![R, K]⟩ ⟨2, ![K, C]⟩ ⟨2, ![R, C]⟩ [1] [0] [0] [1] [] [])
    (l : FVec Ideal ⟨2, ![R, K]⟩ .f32) (r : FVec Ideal ⟨2, ![K, C]⟩ .f32) (p : Fin R) (q : Fin C) :
    Host.dotGeneral (plainDot R K C wf) none l r (ix2 p q) = ∑ k : Fin K, l (ix2 p k) * r (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.ReferenceIdeal.RefLayers

end
-- ==== Proof.RefValue.lean ====
/-
  The reference program's results are the specification's arrays.

  The composed term of the first result is cut into named stages (the index and weight columns, the code, the two
  projections, the two hidden pre-activations, their concatenation, the activations, the third projection, the logits,
  the row maxima, the shifted logits, the output). Each stage is read at an entry: a product of the host is the sum over
  the contracted axis, a bias row reads its entry, a graph aggregation is the sum over the edges whose destination is
  the node, the concatenation reads the second layer in columns 0 to 127 and the first in columns 128 to 255, the
  activation is the specification's function entry by entry, the sum over the 256 hidden units splits into the two sums
  over 128, and the log-softmax subtracts the row maximum and then the logarithm of the row's sum of exponentials.
-/
import proofs.«138230_j33535104647614_2_alg».proof.Proof.RefTerm
import proofs.«138230_j33535104647614_2_alg».proof.Proof.RefLayers
import proofs.«138230_j33535104647614_2_alg».proof.Proof.Spec

noncomputable section

namespace Cert.ReferenceIdeal.RefValue

open Cert.ReferenceIdeal Cert.ReferenceIdeal.Gen Idealize.ShloMosaic Idealize.ShloMosaic.ValueIdx
open Cert.LibColumns Cert.LibPlainDot Cert.Spec Cert.ReferenceIdeal.RefLayers
open scoped BigOperators

/-! ## The stages -/

/-- The source-index column, a negative index moved up by the number of nodes. -/
def sJ (a1 : IVec S600000 32) : IVec S600000x1 32 :=
  broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1)

/-- The destination-index column. -/
def sI (a2 : IVec S600000 32) : IVec S600000x1 32 :=
  broadcastInDim S600000x1 ![0] bcast_S600000_S600000x1_0 a2

/-- The edge-weight column. -/
def sA (a3 : FVec Ideal S600000 .f32) : FVec Ideal S600000x1 .f32 :=
  broadcastInDim S600000x1 ![0] bcast_S600000_S600000x1_0 a3

/-- The code array. -/
def sCode (a0 : FVec Ideal S50000x512 .f32) (a4 : FVec Ideal S512x128 .f32) (a5 : FVec Ideal S128 .f32) : FVec Ideal S50000x128 .f32 :=
  addf (Host.dotGeneral dot_S50000x512_S512x128_S50000x128_1_0_0_1_n_n none a0 a4) (broadcastInDim S50000x128 ![0, 1] bcast_S1x128_S50000x128_0_1 (broadcastInDim S1x128 ![1] bcast_S128_S1x128_1 a5))

/-- The projection of the features by the second layer's weights. -/
def sP2 (a0 : FVec Ideal S50000x512 .f32) (a10 : FVec Ideal S512x128 .f32) : FVec Ideal S50000x128 .f32 :=
  Host.dotGeneral dot_S50000x512_S512x128_S50000x128_1_0_0_1_n_n none a0 a10

/-- The second layer's hidden pre-activation. -/
def sH2 (a0 : FVec Ideal S50000x512 .f32) (a1 : IVec S600000 32) (a2 : IVec S600000 32) (a3 : FVec Ideal S600000 .f32) (a10 : FVec Ideal S512x128 .f32) (a11 : FVec Ideal S128 .f32) : FVec Ideal S50000x128 .f32 :=
  addf (Host.scatterAdd scatter_S50000x128_S600000x1_S600000x128_1_0_0_1 (broadcastInDim S50000x128 ![] bcast_S_S50000x128 (constant S_ .f32 0x00000000#32)) (sI a2) (mulf (broadcastInDim S600000x128 ![0, 1] bcast_S600000x1_S600000x128_0_1 (sA a3)) (Host.gather gather_S50000x128_S600000x1_S600000x128_1_0_n_n_0_1_1128 (sP2 a0 a10) (sJ a1)))) (broadcastInDim S50000x128 ![0, 1] bcast_S1x128_S50000x128_0_1 (broadcastInDim S1x128 ![1] bcast_S128_S1x128_1 a11))

/-- The projection of the code by the first layer's weights. -/
def sP1 (a0 : FVec Ideal S50000x512 .f32) (a4 : FVec Ideal S512x128 .f32) (a5 : FVec Ideal S128 .f32) (a8 : FVec Ideal S128x128 .f32) : FVec Ideal S50000x128 .f32 :=
  Host.dotGeneral dot_S50000x128_S128x128_S50000x128_1_0_0_1_n_n none (sCode a0 a4 a5) a8

/-- The first layer's hidden pre-activation. -/
def sH1 (a0 : FVec Ideal S50000x512 .f32) (a1 : IVec S600000 32) (a2 : IVec S600000 32) (a3 : FVec Ideal S600000 .f32) (a4 : FVec Ideal S512x128 .f32) (a5 : FVec Ideal S128 .f32) (a8 : FVec Ideal S128x128 .f32) (a9 : FVec Ideal S128 .f32) : FVec Ideal S50000x128 .f32 :=
  addf (Host.scatterAdd scatter_S50000x128_S600000x1_S600000x128_1_0_0_1 (broadcastInDim S50000x128 ![] bcast_S_S50000x128 (constant S_ .f32 0x00000000#32)) (sI a2) (mulf (broadcastInDim S600000x128 ![0, 1] bcast_S600000x1_S600000x128_0_1 (sA a3)) (Host.gather gather_S50000x128_S600000x1_S600000x128_1_0_n_n_0_1_1128 (sP1 a0 a4 a5 a8) (sJ a1)))) (broadcastInDim S50000x128 ![0, 1] bcast_S1x128_S50000x128_0_1 (broadcastInDim S1x128 ![1] bcast_S128_S1x128_1 a9))

/-- The two hidden pre-activations side by side. -/
def sCat (a0 : FVec Ideal S50000x512 .f32) (a1 : IVec S600000 32) (a2 : IVec S600000 32) (a3 : FVec Ideal S600000 .f32) (a4 : FVec Ideal S512x128 .f32) (a5 : FVec Ideal S128 .f32) (a8 : FVec Ideal S128x128 .f32) (a9 : FVec Ideal S128 .f32) (a10 : FVec Ideal S512x128 .f32) (a11 : FVec Ideal S128 .f32) : FVec Ideal S50000x256 .f32 :=
  concatenate S50000x256 1 [⟨S50000x128, (sH2 a0 a1 a2 a3 a10 a11)⟩, ⟨S50000x128, (sH1 a0 a1 a2 a3 a4 a5 a8 a9)⟩] concatenates_S50000x128_S50000x128_S50000x256_d1

/-- The activations. -/
def sAct (a0 : FVec Ideal S50000x512 .f32) (a1 : IVec S600000 32) (a2 : IVec S600000 32) (a3 : FVec Ideal S600000 .f32) (a4 : FVec Ideal S512x128 .f32) (a5 : FVec Ideal S128 .f32) (a8 : FVec Ideal S128x128 .f32) (a9 : FVec Ideal S128 .f32) (a10 : FVec Ideal S512x128 .f32) (a11 : FVec Ideal S128 .f32) : FVec Ideal S50000x256 .f32 :=
  select (cmpf .ogt (sCat a0 a1 a2 a3 a4 a5 a8 a9 a10 a11) (broadcastInDim S50000x256 ![] bcast_S_S50000x256 (constant S_ .f32 0x00000000#32))) (sCat a0 a1 a2 a3 a4 a5 a8 a9 a10 a11) (mulf (broadcastInDim S50000x256 ![] bcast_S_S50000x256 (constant S_ .f32 0x3DCCCCCD#32)) (Host.expm1 (sCat a0 a1 a2 a3 a4 a5 a8 a9 a10 a11)))

/-- The third projection. -/
def sP3 (a0 : FVec Ideal S50000x512 .f32) (a1 : IVec S600000 32) (a2 : IVec S600000 32) (a3 : FVec Ideal S600000 .f32) (a4 : FVec Ideal S512x128 .f32) (a5 : FVec Ideal S128 .f32) (a8 : FVec Ideal S128x128 .f32) (a9 : FVec Ideal S128 .f32) (a10 : FVec Ideal S512x128 .f32) (a11 : FVec Ideal S128 .f32) (a12 : FVec Ideal S256x40 .f32) : FVec Ideal S50000x40 .f32 :=
  Host.dotGeneral dot_S50000x256_S256x40_S50000x40_1_0_0_1_n_n none (sAct a0 a1 a2 a3 a4 a5 a8 a9 a10 a11) a12

/-- The logits. -/
def sLogit (a0 : FVec Ideal S50000x512 .f32) (a1 : IVec S600000 32) (a2 : IVec S600000 32) (a3 : FVec Ideal S600000 .f32) (a4 : FVec Ideal S512x128 .f32) (a5 : FVec Ideal S128 .f32) (a8 : FVec Ideal S128x128 .f32) (a9 : FVec Ideal S128 .f32) (a10 : FVec Ideal S512x128 .f32) (a11 : FVec Ideal S128 .f32) (a12 : FVec Ideal S256x40 .f32) (a13 : FVec Ideal S40 .f32) : FVec Ideal S50000x40 .f32 :=
  addf (Host.scatterAdd scatter_S50000x40_S600000x1_S600000x40_1_0_0_1 (broadcastInDim S50000x40 ![] bcast_S_S50000x40 (constant S_ .f32 0x00000000#32)) (sI a2) (mulf (broadcastInDim S600000x40 ![0, 1] bcast_S600000x1_S600000x40_0_1 (sA a3)) (Host.gather gather_S50000x40_S600000x1_S600000x40_1_0_n_n_0_1_140 (sP3 a0 a1 a2 a3 a4 a5 a8 a9 a10 a11 a12) (sJ a1)))) (broadcastInDim S50000x40 ![0, 1] bcast_S1x40_S50000x40_0_1 (broadcastInDim S1x40 ![1] bcast_S40_S1x40_1 a13))

/-- The row maxima of the logits. -/
def sMx (a0 : FVec Ideal S50000x512 .f32) (a1 : IVec S600000 32) (a2 : IVec S600000 32) (a3 : FVec Ideal S600000 .f32) (a4 : FVec Ideal S512x128 .f32) (a5 : FVec Ideal S128 .f32) (a8 : FVec Ideal S128x128 .f32) (a9 : FVec Ideal S128 .f32) (a10 : FVec Ideal S512x128 .f32) (a11 : FVec Ideal S128 .f32) (a12 : FVec Ideal S256x40 .f32) (a13 : FVec Ideal S40 .f32) : FVec Ideal S50000 .f32 :=
  Host.reduce FloatOps.maximumf (sLogit a0 a1 a2 a3 a4 a5 a8 a9 a10 a11 a12 a13) (constant S_ .f32 0xFF800000#32) reducesTo_S50000x40_S50000_d1 h_S_

/-- The row maxima, bounded below by minus infinity. -/
def sM2 (a0 : FVec Ideal S50000x512 .f32) (a1 : IVec S600000 32) (a2 : IVec S600000 32) (a3 : FVec Ideal S600000 .f32) (a4 : FVec Ideal S512x128 .f32) (a5 : FVec Ideal S128 .f32) (a8 : FVec Ideal S128x128 .f32) (a9 : FVec Ideal S128 .f32) (a10 : FVec Ideal S512x128 .f32) (a11 : FVec Ideal S128 .f32) (a12 : FVec Ideal S256x40 .f32) (a13 : FVec Ideal S40 .f32) : FVec Ideal S50000 .f32 :=
  maximumf (broadcastInDim S50000 ![] bcast_S_S50000 (constant S_ .f32 0xFF800000#32)) (sMx a0 a1 a2 a3 a4 a5 a8 a9 a10 a11 a12 a13)

/-- The logits with their row maximum taken out. -/
def sSh (a0 : FVec Ideal S50000x512 .f32) (a1 : IVec S600000 32) (a2 : IVec S600000 32) (a3 : FVec Ideal S600000 .f32) (a4 : FVec Ideal S512x128 .f32) (a5 : FVec Ideal S128 .f32) (a8 : FVec Ideal S128x128 .f32) (a9 : FVec Ideal S128 .f32) (a10 : FVec Ideal S512x128 .f32) (a11 : FVec Ideal S128 .f32) (a12 : FVec Ideal S256x40 .f32) (a13 : FVec Ideal S40 .f32) : FVec Ideal S50000x40 .f32 :=
  subf (sLogit a0 a1 a2 a3 a4 a5 a8 a9 a10 a11 a12 a13) (broadcastInDim S50000x40 ![0, 1] bcast_S50000x1_S50000x40_0_1 (broadcastInDim S50000x1 ![0] bcast_S50000_S50000x1_0 (sM2 a0 a1 a2 a3 a4 a5 a8 a9 a10 a11 a12 a13)))

/-- The log-softmax of the logits. -/
def sOut (a0 : FVec Ideal S50000x512 .f32) (a1 : IVec S600000 32) (a2 : IVec S600000 32) (a3 : FVec Ideal S600000 .f32) (a4 : FVec Ideal S512x128 .f32) (a5 : FVec Ideal S128 .f32) (a8 : FVec Ideal S128x128 .f32) (a9 : FVec Ideal S128 .f32) (a10 : FVec Ideal S512x128 .f32) (a11 : FVec Ideal S128 .f32) (a12 : FVec Ideal S256x40 .f32) (a13 : FVec Ideal S40 .f32) : FVec Ideal S50000x40 .f32 :=
  subf (sSh a0 a1 a2 a3 a4 a5 a8 a9 a10 a11 a12 a13) (broadcastInDim S50000x40 ![0, 1] bcast_S50000x1_S50000x40_0_1 (Host.log (broadcastInDim S50000x1 ![0] bcast_S50000_S50000x1_0 (Host.reduceAdd (Host.exp (sSh a0 a1 a2 a3 a4 a5 a8 a9 a10 a11 a12 a13)) (constant S_ .f32 0x00000000#32) reducesTo_S50000x40_S50000_d1 h_S_))))

/-! ## The printed records read at an entry -/

theorem dotA_apply (l : FVec Ideal S50000x512 .f32) (r : FVec Ideal S512x128 .f32) (p : Fin 50000) (q : Fin 128) :
    Host.dotGeneral dot_S50000x512_S512x128_S50000x128_1_0_0_1_n_n none l r (ix2 p q) = ∑ k : Fin 512, l (ix2 p k) * r (ix2 k q) :=
  hostDot_apply dot_S50000x512_S512x128_S50000x128_1_0_0_1_n_n_wf l r p q

theorem dotB_apply (l : FVec Ideal S50000x128 .f32) (r : FVec Ideal S128x512 .f32) (p : Fin 50000) (q : Fin 512) :
    Host.dotGeneral dot_S50000x128_S128x512_S50000x512_1_0_0_1_n_n none l r (ix2 p q) = ∑ k : Fin 128, l (ix2 p k) * r (ix2 k q) :=
  hostDot_apply dot_S50000x128_S128x512_S50000x512_1_0_0_1_n_n_wf l r p q

theorem dotC_apply (l : FVec Ideal S50000x128 .f32) (r : FVec Ideal S128x128 .f32) (p : Fin 50000) (q : Fin 128) :
    Host.dotGeneral dot_S50000x128_S128x128_S50000x128_1_0_0_1_n_n none l r (ix2 p q) = ∑ k : Fin 128, l (ix2 p k) * r (ix2 k q) :=
  hostDot_apply dot_S50000x128_S128x128_S50000x128_1_0_0_1_n_n_wf l r p q

theorem dotD_apply (l : FVec Ideal S50000x256 .f32) (r : FVec Ideal S256x40 .f32) (p : Fin 50000) (q : Fin 40) :
    Host.dotGeneral dot_S50000x256_S256x40_S50000x40_1_0_0_1_n_n none l r (ix2 p q) = ∑ k : Fin 256, l (ix2 p k) * r (ix2 k q) :=
  hostDot_apply dot_S50000x256_S256x40_S50000x40_1_0_0_1_n_n_wf l r p q

theorem agg128_apply (A : FVec Ideal S600000x1 .f32) (J I : IVec S600000x1 32) (Y : FVec Ideal S50000x128 .f32)
    (n : Fin 50000) (f : Fin 128) :
    Host.scatterAdd scatter_S50000x128_S600000x1_S600000x128_1_0_0_1 (broadcastInDim S50000x128 ![] bcast_S_S50000x128 (constant S_ .f32 0x00000000#32)) I (mulf (broadcastInDim S600000x128 ![0, 1] bcast_S600000x1_S600000x128_0_1 A) (Host.gather gather_S50000x128_S600000x1_S600000x128_1_0_n_n_0_1_1128 Y J)) (ix2 n f)
      = agg A J I (fun p => Y (ix2 p f)) n :=
  agg_apply scatter_S50000x128_S600000x1_S600000x128_1_0_0_1_wf gather_S50000x128_S600000x1_S600000x128_1_0_n_n_0_1_1128_wf
    bcast_S600000x1_S600000x128_0_1 bcast_S_S50000x128 A J I Y n f

theorem agg40_apply (A : FVec Ideal S600000x1 .f32) (J I : IVec S600000x1 32) (Y : FVec Ideal S50000x40 .f32)
    (n : Fin 50000) (f : Fin 40) :
    Host.scatterAdd scatter_S50000x40_S600000x1_S600000x40_1_0_0_1 (broadcastInDim S50000x40 ![] bcast_S_S50000x40 (constant S_ .f32 0x00000000#32)) I (mulf (broadcastInDim S600000x40 ![0, 1] bcast_S600000x1_S600000x40_0_1 A) (Host.gather gather_S50000x40_S600000x1_S600000x40_1_0_n_n_0_1_140 Y J)) (ix2 n f)
      = agg A J I (fun p => Y (ix2 p f)) n :=
  agg_apply scatter_S50000x40_S600000x1_S600000x40_1_0_0_1_wf gather_S50000x40_S600000x1_S600000x40_1_0_n_n_0_1_140_wf
    bcast_S600000x1_S600000x40_0_1 bcast_S_S50000x40 A J I Y n f

/-! ## The stages at an entry -/

section
variable (a0 : FVec Ideal S50000x512 .f32) (a1 : IVec S600000 32) (a2 : IVec S600000 32) (a3 : FVec Ideal S600000 .f32) (a4 : FVec Ideal S512x128 .f32) (a5 : FVec Ideal S128 .f32) (a6 : FVec Ideal S128x512 .f32) (a7 : FVec Ideal S512 .f32) (a8 : FVec Ideal S128x128 .f32) (a9 : FVec Ideal S128 .f32) (a10 : FVec Ideal S512x128 .f32) (a11 : FVec Ideal S128 .f32) (a12 : FVec Ideal S256x40 .f32) (a13 : FVec Ideal S40 .f32)

theorem sCode_at (p : Fin 50000) (k : Fin 128) : sCode a0 a4 a5 (ix2 p k) = code a0 a4 a5 p k := by
  unfold sCode code
  rw [addf_apply, dotA_apply, bias_apply]

theorem sP2_at (p : Fin 50000) (k : Fin 128) : sP2 a0 a10 (ix2 p k) = proj2 a0 a10 p k := by
  unfold sP2 proj2
  rw [dotA_apply]

theorem sH2_at (n : Fin 50000) (k : Fin 128) :
    sH2 a0 a1 a2 a3 a10 a11 (ix2 n k) = hid2 a0 a10 a11 (sA a3) (sJ a1) (sI a2) n k := by
  unfold sH2 hid2
  rw [addf_apply, agg128_apply, bias_apply]
  simp only [sP2_at]

theorem sP1_at (p : Fin 50000) (k : Fin 128) : sP1 a0 a4 a5 a8 (ix2 p k) = proj1 a0 a4 a5 a8 p k := by
  unfold sP1 proj1
  rw [dotC_apply]
  simp only [sCode_at]

theorem sH1_at (n : Fin 50000) (k : Fin 128) :
    sH1 a0 a1 a2 a3 a4 a5 a8 a9 (ix2 n k) = hid1 a0 a4 a5 a8 a9 (sA a3) (sJ a1) (sI a2) n k := by
  unfold sH1 hid1
  rw [addf_apply, agg128_apply, bias_apply]
  simp only [sP1_at]

theorem sCat_left (n : Fin 50000) (k : Fin 128) (hk : k.val < 256) :
    sCat a0 a1 a2 a3 a4 a5 a8 a9 a10 a11 (ix2 n (⟨k.val, hk⟩ : Fin 256)) = sH2 a0 a1 a2 a3 a10 a11 (ix2 n k) := by
  unfold sCat
  exact concatenate_pair_apply_left (t := S50000x256) (s₁ := S50000x128) (s₂ := S50000x128) (1 : Fin 2) _ _
    concatenates_S50000x128_S50000x128_S50000x256_d1 (ix2 n (⟨k.val, hk⟩ : Fin 256)) rfl (ix2 n k) (fun b => by
      match b with
      | ⟨0, _⟩ => rfl
      | ⟨1, _⟩ => rfl)

theorem sCat_right (n : Fin 50000) (k : Fin 128) (hk : 128 + k.val < 256) :
    sCat a0 a1 a2 a3 a4 a5 a8 a9 a10 a11 (ix2 n (⟨128 + k.val, hk⟩ : Fin 256)) = sH1 a0 a1 a2 a3 a4 a5 a8 a9 (ix2 n k) := by
  unfold sCat
  exact concatenate_pair_apply_right (t := S50000x256) (s₁ := S50000x128) (s₂ := S50000x128) (1 : Fin 2) _ _
    concatenates_S50000x128_S50000x128_S50000x256_d1 (ix2 n (⟨128 + k.val, hk⟩ : Fin 256)) rfl rfl (ix2 n k) (fun b hb => by
      match b with
      | ⟨0, _⟩ => rfl
      | ⟨1, _⟩ => exact absurd rfl hb) (Nat.add_comm _ _)

theorem sAct_at (j : S50000x256.Idx) : sAct a0 a1 a2 a3 a4 a5 a8 a9 a10 a11 j = elu (sCat a0 a1 a2 a3 a4 a5 a8 a9 a10 a11 j) := by
  unfold sAct elu
  rw [select_apply, cmpf_apply, mulf_apply, splat_apply, splat_apply]
  rfl

theorem sP3_at (n : Fin 50000) (q : Fin 40) :
    sP3 a0 a1 a2 a3 a4 a5 a8 a9 a10 a11 a12 (ix2 n q)
      = proj3 (hid2 a0 a10 a11 (sA a3) (sJ a1) (sI a2)) (hid1 a0 a4 a5 a8 a9 (sA a3) (sJ a1) (sI a2)) a12 n q := by
  unfold sP3 proj3
  rw [dotD_apply, sum_fin256]
  refine congrArg₂ (· + ·) ?_ ?_
  · refine Finset.sum_congr rfl fun k _ => ?_
    rw [sAct_at, sCat_left, sH2_at]
  · refine Finset.sum_congr rfl fun k _ => ?_
    rw [sAct_at, sCat_right, sH1_at]

theorem sLogit_at (n : Fin 50000) (q : Fin 40) :
    sLogit a0 a1 a2 a3 a4 a5 a8 a9 a10 a11 a12 a13 (ix2 n q) = logits a0 a4 a5 a8 a9 a10 a11 a12 a13 (sA a3) (sJ a1) (sI a2) n q := by
  unfold sLogit logits logit
  rw [addf_apply, agg40_apply, bias_apply]
  simp only [sP3_at]

theorem sMx_at (p : Fin 50000) :
    sMx a0 a1 a2 a3 a4 a5 a8 a9 a10 a11 a12 a13 (ix1 p) = rowMax (fun q => sLogit a0 a1 a2 a3 a4 a5 a8 a9 a10 a11 a12 a13 (ix2 p q)) := by
  unfold sMx
  exact rowMax_apply _ reducesTo_S50000x40_S50000_d1 h_S_ p

theorem sM2_at (p : Fin 50000) :
    sM2 a0 a1 a2 a3 a4 a5 a8 a9 a10 a11 a12 a13 (ix1 p) = rowMax (fun q => sLogit a0 a1 a2 a3 a4 a5 a8 a9 a10 a11 a12 a13 (ix2 p q)) := by
  unfold sM2
  rw [maximumf_apply, splat_apply, sMx_at]
  exact max_fold_self _ _ _

theorem sSh_at (p : Fin 50000) (q : Fin 40) :
    sSh a0 a1 a2 a3 a4 a5 a8 a9 a10 a11 a12 a13 (ix2 p q)
      = sLogit a0 a1 a2 a3 a4 a5 a8 a9 a10 a11 a12 a13 (ix2 p q) - rowMax (fun q' => sLogit a0 a1 a2 a3 a4 a5 a8 a9 a10 a11 a12 a13 (ix2 p q')) := by
  unfold sSh
  rw [subf_apply, column_of_vector_apply, sM2_at]

theorem sOut_at (p : Fin 50000) (q : Fin 40) :
    sOut a0 a1 a2 a3 a4 a5 a8 a9 a10 a11 a12 a13 (ix2 p q) = lsm' (fun q' => sLogit a0 a1 a2 a3 a4 a5 a8 a9 a10 a11 a12 a13 (ix2 p q')) q := by
  unfold sOut lsm'
  rw [subf_apply, column_apply]
  rw [show ∀ (X : FVec Ideal S50000x1 .f32) (i : S50000x1.Idx), Host.log X i = Ideal.log (X i) from fun _ _ => rfl]
  rw [vector_column_apply, rowSum_apply]
  simp only [show ∀ (X : FVec Ideal S50000x40 .f32) (i : S50000x40.Idx), Host.exp X i = Ideal.exp (X i) from fun _ _ => rfl,
    sSh_at]

/-! ## The two results -/

set_option maxRecDepth 8192 in
/-- The first result's composed term is the last stage. -/
theorem refOut_eq : refOut a0 a1 a2 a3 a4 a5 a6 a7 a8 a9 a10 a11 a12 a13 = sOut a0 a1 a2 a3 a4 a5 a8 a9 a10 a11 a12 a13 := by
  unfold refOut
  rfl

/-- THE FIRST RESULT IS THE SPECIFICATION'S OUTPUT ARRAY, its corrections subtracted one after the other. -/
theorem ref_out_eq :
    refOut a0 a1 a2 a3 a4 a5 a6 a7 a8 a9 a10 a11 a12 a13
      = outArr' a0 a4 a5 a8 a9 a10 a11 a12 a13
          (broadcastInDim S600000x1 ![0] bcast_S600000_S600000x1_0 a3)
          (broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 50000#32))) a1))
          (broadcastInDim S600000x1 ![0] bcast_S600000_S600000x1_0 a2) := by
  rw [refOut_eq]
  show sOut a0 a1 a2 a3 a4 a5 a8 a9 a10 a11 a12 a13 = outArr' a0 a4 a5 a8 a9 a10 a11 a12 a13 (sA a3) (sJ a1) (sI a2)
  funext i
  obtain ⟨p, q, rfl⟩ : ∃ (p : Fin 50000) (q : Fin 40), i = ix2 p q := ⟨i 0, i 1, eq_ix2 i⟩
  rw [sOut_at]
  unfold outArr'
  simp only [sLogit_at]

/-- THE SECOND RESULT IS THE SPECIFICATION'S RECONSTRUCTION ARRAY. -/
theorem ref_rec_eq : refRec a0 a4 a5 a6 a7 = recArr a0 a4 a5 a6 a7 := by
  funext i
  obtain ⟨p, j, rfl⟩ : ∃ (p : Fin 50000) (j : Fin 512), i = ix2 p j := ⟨i 0, i 1, eq_ix2 i⟩
  show addf (Host.dotGeneral dot_S50000x128_S128x512_S50000x512_1_0_0_1_n_n none (sCode a0 a4 a5) a6) (broadcastInDim S50000x512 ![0, 1] bcast_S1x512_S50000x512_0_1 (broadcastInDim S1x512 ![1] bcast_S512_S1x512_1 a7)) (ix2 p j) = recov a0 a4 a5 a6 a7 p j
  unfold recov
  rw [addf_apply, dotB_apply, bias_apply]
  simp only [sCode_at]

end

end Cert.ReferenceIdeal.RefValue

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.Finite.lean ====
/-
  The two ways of writing the log-softmax agree on rows of real numbers, and the logits of the network are real numbers
  when every array entry is.

  Over the extended reals x − (M + l) and (x − M) − l differ when M is an infinity. The row maximum M of a row of real
  numbers, folded from minus infinity over a nonempty row, is a real number, and then −(M + l) = −M − l for every l.
  A logit is built from the array entries by finite sums, products, the exponential of a real number, a selection
  between two real numbers, and sums over the edges of terms that are either a product of two real numbers or zero:
  every step keeps a real number real.
-/
import proofs.«138230_j33535104647614_2_alg».proof.Proof.Spec
import proofs.«138230_j33535104647614_2_alg».proof.Proof.LibFinite

noncomputable section

namespace Cert.SpecFinite

open Idealize.ShloMosaic Idealize.ShloMosaic.ValueIdx Idealize.ShloMosaic.LibFinite Cert.LibColumns Cert.Spec
open scoped BigOperators

/-- The single-precision word with sign bit set, exponent all ones and zero fraction denotes minus infinity. -/
theorem ofBits_neg_inf : Ideal.ofBits .f32 0xFF800000#32 = (⊥ : EReal) := by simp [Ideal.ofBits, Ideal.ieee]

/-- The maximum, folded from minus infinity, of a nonempty finite family of real numbers is a real number. -/
theorem isReal_fold_max {ι : Type*} (s : Finset ι) (f : ι → EReal) (hs : s.Nonempty) (h : ∀ i ∈ s, IsReal (f i)) :
    IsReal (s.fold max (⊥ : EReal) f) := by
  induction hs using Finset.Nonempty.cons_induction with
  | singleton a =>
    rw [Finset.fold_singleton, max_bot_right]
    exact h a (Finset.mem_singleton_self a)
  | cons a s ha hs ih =>
    rw [Finset.fold_cons]
    exact IsReal.max _ _ (h a (Finset.mem_cons_self a s)) (ih fun i hi => h i (Finset.mem_cons.mpr (Or.inr hi)))

/-- The maximum of a row of 40 real numbers is a real number. -/
theorem rowMax_real (L : Fin 40 → EReal) (hL : ∀ q, IsReal (L q)) : IsReal (rowMax L) := by
  unfold rowMax
  rw [ofBits_neg_inf]
  exact isReal_fold_max _ _ ⟨0, Finset.mem_univ _⟩ fun q _ => hL q

/-- With a real M, subtracting M + l is subtracting M and then l. -/
theorem sub_add_real (x l : EReal) (m : ℝ) : x - ((m : EReal) + l) = (x - (m : EReal)) - l := by
  rw [sub_eq_add_neg, EReal.neg_add (Or.inl (EReal.coe_ne_bot m)) (Or.inl (EReal.coe_ne_top m)), sub_eq_add_neg,
    sub_eq_add_neg, sub_eq_add_neg, add_assoc]

/-- On a row of real numbers the two ways of writing the log-softmax agree. -/
theorem lsm_eq (L : Fin 40 → EReal) (hL : ∀ q, IsReal (L q)) (q : Fin 40) : lsm L q = lsm' L q := by
  obtain ⟨m, hm⟩ := rowMax_real L hL
  unfold lsm lsm'
  rw [hm]
  exact sub_add_real _ _ m

/-- The code of a node is real when the features, the weights and the bias are. -/
theorem code_real (X : Arr2 50000 512) (EW : Arr2 512 128) (EB : Arr1 128) (hX : ∀ i, IsReal (X i))
    (hEW : ∀ i, IsReal (EW i)) (hEB : ∀ i, IsReal (EB i)) (p : Fin 50000) (k : Fin 128) : IsReal (code X EW EB p k) := by
  unfold code
  exact IsReal.add _ _ (IsReal.sum _ _ fun l _ => IsReal.mul _ _ (hX _) (hEW _)) (hEB _)

/-- The projection of the feature row is real. -/
theorem proj2_real (X : Arr2 50000 512) (W2 : Arr2 512 128) (hX : ∀ i, IsReal (X i)) (hW2 : ∀ i, IsReal (W2 i))
    (p : Fin 50000) (k : Fin 128) : IsReal (proj2 X W2 p k) := by
  unfold proj2
  exact IsReal.sum _ _ fun l _ => IsReal.mul _ _ (hX _) (hW2 _)

/-- The projection of the code is real. -/
theorem proj1_real (X : Arr2 50000 512) (EW : Arr2 512 128) (EB : Arr1 128) (W1 : Arr2 128 128)
    (hX : ∀ i, IsReal (X i)) (hEW : ∀ i, IsReal (EW i)) (hEB : ∀ i, IsReal (EB i)) (hW1 : ∀ i, IsReal (W1 i))
    (p : Fin 50000) (k : Fin 128) : IsReal (proj1 X EW EB W1 p k) := by
  unfold proj1
  exact IsReal.sum _ _ fun l _ => IsReal.mul _ _ (code_real X EW EB hX hEW hEB p l) (hW1 _)

/-- The graph aggregation of a real quantity with real edge weights is real: each edge contributes a product of two
    real numbers or zero. -/
theorem agg_real (A : Arr2 600000 1) (J I : EdgeIdx) (Y : Fin 50000 → EReal) (hA : ∀ i, IsReal (A i))
    (hY : ∀ p, IsReal (Y p)) (n : Fin 50000) : IsReal (agg A J I Y n) := by
  unfold agg
  refine IsReal.sum _ _ fun e _ => ?_
  split
  · exact IsReal.mul _ _ (hA _) (hY _)
  · exact IsReal.zero

/-- The single-precision word of one tenth denotes a real number. -/
theorem isReal_ofBits_tenth : IsReal (Ideal.ofBits .f32 0x3DCCCCCD#32) := by
  show IsReal (Ideal.ieee 8 23 (0x3DCCCCCD#32 : BitVec 32))
  exact isReal_ieee_of_exponent_ne 8 23 (0x3DCCCCCD#32 : BitVec 32) (by decide)

/-- The activation of a real number is real: the number itself, or a real constant times exp x − 1. -/
theorem elu_real (x : EReal) (hx : IsReal x) : IsReal (elu x) := by
  obtain ⟨r, rfl⟩ := hx
  unfold elu Scalar.select
  split
  · exact ⟨r, rfl⟩
  · refine IsReal.mul _ _ isReal_ofBits_tenth ?_
    rw [Ideal.exp_coe]
    exact ⟨Real.exp r - 1, by rw [EReal.coe_sub, EReal.coe_one]⟩

section Whole
variable (X : Arr2 50000 512) (EW : Arr2 512 128) (EB : Arr1 128)
  (W1 : Arr2 128 128) (B1 : Arr1 128) (W2 : Arr2 512 128) (B2 : Arr1 128) (W3 : Arr2 256 40) (B3 : Arr1 40)
  (A : Arr2 600000 1) (J I : EdgeIdx)

/-- The second layer's hidden pre-activation is real. -/
theorem hid2_real (hX : ∀ i, IsReal (X i)) (hW2 : ∀ i, IsReal (W2 i)) (hB2 : ∀ i, IsReal (B2 i))
    (hA : ∀ i, IsReal (A i)) (n : Fin 50000) (k : Fin 128) : IsReal (hid2 X W2 B2 A J I n k) := by
  unfold hid2
  exact IsReal.add _ _ (agg_real A J I _ hA (fun p => proj2_real X W2 hX hW2 p k) n) (hB2 _)

/-- The first layer's hidden pre-activation is real. -/
theorem hid1_real (hX : ∀ i, IsReal (X i)) (hEW : ∀ i, IsReal (EW i)) (hEB : ∀ i, IsReal (EB i))
    (hW1 : ∀ i, IsReal (W1 i)) (hB1 : ∀ i, IsReal (B1 i)) (hA : ∀ i, IsReal (A i)) (n : Fin 50000) (k : Fin 128) :
    IsReal (hid1 X EW EB W1 B1 A J I n k) := by
  unfold hid1
  exact IsReal.add _ _ (agg_real A J I _ hA (fun p => proj1_real X EW EB W1 hX hEW hEB hW1 p k) n) (hB1 _)

/-- The third projection of real hidden values is real. -/
theorem proj3_real (H2 H1 : Fin 50000 → Fin 128 → EReal) (h2 : ∀ n k, IsReal (H2 n k)) (h1 : ∀ n k, IsReal (H1 n k))
    (hW3 : ∀ i, IsReal (W3 i)) (n : Fin 50000) (q : Fin 40) : IsReal (proj3 H2 H1 W3 n q) := by
  unfold proj3
  exact IsReal.add _ _
    (IsReal.sum _ _ fun k _ => IsReal.mul _ _ (elu_real _ (h2 n k)) (hW3 _))
    (IsReal.sum _ _ fun k _ => IsReal.mul _ _ (elu_real _ (h1 n k)) (hW3 _))

/-- Every logit of the network is a real number when every array entry is. -/
theorem logits_real (hX : ∀ i, IsReal (X i)) (hEW : ∀ i, IsReal (EW i)) (hEB : ∀ i, IsReal (EB i))
    (hW1 : ∀ i, IsReal (W1 i)) (hB1 : ∀ i, IsReal (B1 i)) (hW2 : ∀ i, IsReal (W2 i)) (hB2 : ∀ i, IsReal (B2 i))
    (hW3 : ∀ i, IsReal (W3 i)) (hB3 : ∀ i, IsReal (B3 i)) (hA : ∀ i, IsReal (A i)) (n : Fin 50000) (q : Fin 40) :
    IsReal (logits X EW EB W1 B1 W2 B2 W3 B3 A J I n q) := by
  unfold logits logit
  refine IsReal.add _ _ (agg_real A J I _ hA (fun p => ?_) n) (hB3 _)
  exact proj3_real W3 _ _ (hid2_real X W2 B2 A J I hX hW2 hB2 hA) (hid1_real X EW EB W1 B1 A J I hX hEW hEB hW1 hB1 hA)
    hW3 p q

/-- With every array entry real, the two ways of writing the first result are the same array. -/
theorem outArr_eq (hX : ∀ i, IsReal (X i)) (hEW : ∀ i, IsReal (EW i)) (hEB : ∀ i, IsReal (EB i))
    (hW1 : ∀ i, IsReal (W1 i)) (hB1 : ∀ i, IsReal (B1 i)) (hW2 : ∀ i, IsReal (W2 i)) (hB2 : ∀ i, IsReal (B2 i))
    (hW3 : ∀ i, IsReal (W3 i)) (hB3 : ∀ i, IsReal (B3 i)) (hA : ∀ i, IsReal (A i)) :
    outArr X EW EB W1 B1 W2 B2 W3 B3 A J I = outArr' X EW EB W1 B1 W2 B2 W3 B3 A J I := by
  funext i
  unfold outArr outArr'
  exact lsm_eq _ (fun q => logits_real X EW EB W1 B1 W2 B2 W3 B3 A J I hX hEW hEB hW1 hB1 hW2 hB2 hW3 hB3 hA (i 0) q) (i 1)

end Whole

end Cert.SpecFinite

end
-- ==== Proof.PreFinite.lean ====
/-
  The precondition, read back: every entry of every float input is a real number.

  The precondition is the conjunction, over the twelve float inputs x, of "every entry of |x| is below plus infinity": a
  comparison of |x| with the constant plus infinity, reduced by `and` from the true bit over all axes, the twelve
  results joined by `and`. A conjunction by `and` that is the true bit has both members true; a reduction by `and` that is
  the true bit had the true bit at every entry; and |x| = max x (−x) is below plus infinity only when x is neither
  infinity, that is when x is a real number.
-/
import proofs.«138230_j33535104647614_2_alg».proof.Pre_finite_inputs
import proofs.«138230_j33535104647614_2_alg».proof.Proof.Gen.Pre_finite_inputs
import proofs.«138230_j33535104647614_2_alg».proof.Proof.LibFinite
import Idealize.ShloMosaic.Lib.ReduceAll

noncomputable section

namespace Cert.PreFinite

open Idealize.ShloMosaic Idealize.ShloMosaic.ValueIdx Idealize.ShloMosaic.LibFinite Cert.Pre_finite_inputs

/-- The shape of no axes has one index. -/
instance subsingleton_S_ : Subsingleton S_.Idx := ⟨fun a b => funext fun d => d.elim0⟩

/-- The single-precision word with exponent all ones, zero fraction and sign bit clear denotes plus infinity. -/
theorem ofBits_pos_inf : Ideal.ofBits .f32 0x7F800000#32 = (⊤ : EReal) := by simp [Ideal.ofBits, Ideal.ieee]

/-- A bit made from a truth value is the true bit exactly when the truth value is true. -/
theorem ofBool_eq_one (b : Bool) : BitVec.ofBool b = 1#1 ↔ b = true := by cases b <;> decide

/-- An extended real whose absolute value max x (−x) is below plus infinity is a real number. -/
theorem isReal_of_abs_lt_inf (x : EReal)
    (h : Ideal.cmp .olt (max x (-x)) (Ideal.ofBits .f32 0x7F800000#32) = 1#1) : IsReal x := by
  rw [ofBits_pos_inf] at h
  unfold Ideal.cmp at h
  rw [ofBool_eq_one, decide_eq_true_eq] at h
  induction x using EReal.rec with
  | bot => rw [EReal.neg_bot, max_eq_right bot_le] at h; exact absurd h (lt_irrefl _)
  | coe r => exact ⟨r, rfl⟩
  | top => rw [max_eq_left le_top] at h; exact absurd h (lt_irrefl _)

/-- If the reduction by `and`, over all axes, of "|x| is below plus infinity" is the true bit, every entry of x is a
    real number. -/
theorem all_lt_inf {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf x) (broadcastInDim s ![] hb (constant (F := Ideal) S_ .f32 0x7F800000#32))) init hr hu ix0
      = 1#1) (i : s.Idx) : IsReal (x i) := by
  have hi := Host.reduce_andi_all _ init hr hu ix0 h i
  exact isReal_of_abs_lt_inf (x i) hi

/-- A conjunction by `and` of two one-bit scalars is the true bit exactly when both are. -/
theorem andi_ix0 (x y : IVec S_ 1) : andi x y ix0 = 1#1 ↔ x ix0 = 1#1 ∧ y ix0 = 1#1 := IntOp.andi_eq_one

/-- THE PRECONDITION DECODED: every entry of each of the twelve float inputs is a real number. -/
theorem finite_of_pre [Cert.Pre_finite_inputs.Facts] (a0 : FVec Ideal S50000x512 .f32) (a1 : IVec S600000 32)
    (a2 : IVec S600000 32) (a3 : FVec Ideal S600000 .f32) (a4 : FVec Ideal S512x128 .f32) (a5 : FVec Ideal S128 .f32)
    (a6 : FVec Ideal S128x512 .f32) (a7 : FVec Ideal S512 .f32) (a8 : FVec Ideal S128x128 .f32)
    (a9 : FVec Ideal S128 .f32) (a10 : FVec Ideal S512x128 .f32) (a11 : FVec Ideal S128 .f32)
    (a12 : FVec Ideal S256x40 .f32) (a13 : FVec Ideal S40 .f32)
    (h : Cert.Pre_finite_inputs.fn (F := Ideal) a0 a1 a2 a3 a4 a5 a6 a7 a8 a9 a10 a11 a12 a13 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) := by
  have e := congrFun h ix0
  dsimp only [Cert.Pre_finite_inputs.fn, Cert.Pre_finite_inputs.fn_part1, Cert.Pre_finite_inputs.fn_part2,
    Cert.Pre_finite_inputs.fn_part3] at e
  simp only [andi_ix0] at e
  obtain ⟨⟨⟨⟨⟨⟨⟨⟨⟨⟨⟨h0, h3⟩, h4⟩, h5⟩, h6⟩, h7⟩, h8⟩, h9⟩, h10⟩, h11⟩, h12⟩, h13⟩ := e
  exact ⟨all_lt_inf a0 _ _ _ _ h0, all_lt_inf a3 _ _ _ _ h3, all_lt_inf a4 _ _ _ _ h4, all_lt_inf a5 _ _ _ _ h5,
    all_lt_inf a6 _ _ _ _ h6, all_lt_inf a7 _ _ _ _ h7, all_lt_inf a8 _ _ _ _ h8, all_lt_inf a9 _ _ _ _ h9,
    all_lt_inf a10 _ _ _ _ h10, all_lt_inf a11 _ _ _ _ h11, all_lt_inf a12 _ _ _ _ h12, all_lt_inf a13 _ _ _ _ h13⟩

end Cert.PreFinite

end
-- ==== Proof.lean ====
/-
  The proof of the certificate's claim: the three frames, the (empty) idealization ledger, and the equality of the two
  idealized programs' results.

  Both programs compute, on the extended reals, the same network of their fourteen arguments (the specification of
  Proof/Spec.lean): the kernel program region by region — each region's output array one function of its input arrays,
  the host's graph aggregations between them acting column by column, so that the aggregated side-by-side projections
  are the two hidden layers —, the reference operation by operation. The one place where the two differ is the
  log-softmax's last step: the kernel subtracts (M + log Σ exp(L − M)) from a logit L, the reference subtracts M and
  then log Σ exp(L − M). On the extended reals these agree when the row maximum M is a real number, which it is because
  every logit is: a logit is built from the finite inputs (the precondition) by finite sums, products, the exponential
  of a real, a selection, and sums over the edges.
-/
import proofs.«138230_j33535104647614_2_alg».proof.Defs
import proofs.«138230_j33535104647614_2_alg».proof.Proof.Gen.Kernel
import proofs.«138230_j33535104647614_2_alg».proof.Proof.Gen.Kernel.Skeleton
import proofs.«138230_j33535104647614_2_alg».proof.Proof.Gen.Kernel.Launch
import proofs.«138230_j33535104647614_2_alg».proof.Proof.Gen.Kernel.Points
import proofs.«138230_j33535104647614_2_alg».proof.Proof.Gen.Kernel.Frame
import proofs.«138230_j33535104647614_2_alg».proof.Proof.Gen.KernelIdeal
import proofs.«138230_j33535104647614_2_alg».proof.Proof.Gen.KernelIdeal.Skeleton
import proofs.«138230_j33535104647614_2_alg».proof.Proof.Gen.KernelIdeal.Launch
import proofs.«138230_j33535104647614_2_alg».proof.Proof.Gen.KernelIdeal.Points
import proofs.«138230_j33535104647614_2_alg».proof.Proof.Gen.KernelIdeal.Frame
import proofs.«138230_j33535104647614_2_alg».proof.Proof.Gen.ReferenceIdeal
import proofs.«138230_j33535104647614_2_alg».proof.Proof.Gen.Pre_finite_inputs
import proofs.«138230_j33535104647614_2_alg».proof.Proof.KernelRun
import proofs.«138230_j33535104647614_2_alg».proof.Proof.KernelHost
import proofs.«138230_j33535104647614_2_alg».proof.Proof.RefValue
import proofs.«138230_j33535104647614_2_alg».proof.Proof.RefRun
import proofs.«138230_j33535104647614_2_alg».proof.Proof.Finite
import proofs.«138230_j33535104647614_2_alg».proof.Proof.PreFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run m ρ)

/-- From memories that agree on the fourteen arguments, finite by the precondition, the two idealized programs end with
    the same log-softmax array and the same reconstruction array. -/
theorem algebraic : Cert.algebraic_KernelIdeal_ReferenceIdeal := by
  intro m ρ m' ρ' hpre hagree
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (Cert.KernelIdeal.HandH.edgeW (m ((c.tc : Thread Cert.KernelIdeal.nD Cert.KernelIdeal.τ).loc Cert.KernelIdeal.main_arg3))) (Cert.KernelIdeal.HandH.srcCol (m ((c.tc : Thread Cert.KernelIdeal.nD Cert.KernelIdeal.τ).loc Cert.KernelIdeal.main_arg1))) (Cert.KernelIdeal.HandH.dstCol (m ((c.tc : Thread Cert.KernelIdeal.nD Cert.KernelIdeal.τ).loc Cert.KernelIdeal.main_arg2))),
    fun c => Cert.Spec.recArr (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
        ⟨(h c).1.trans (Cert.KernelIdeal.HandH.result_out m ρ c), (h c).2.1.trans (Cert.KernelIdeal.HandH.result_rec m ρ c), (h c).2.2⟩)
      (Cert.KernelIdeal.Hand.run_results (F := Ideal) m ρ)
  · refine (θ_run Cert.ReferenceIdeal.defs _ _).mono (fun r h c => ⟨(h c).1.trans ?_, (h c).2.1.trans ?_, (h c).2.2⟩)
      (Cert.ReferenceIdeal.ValueP.run m' ρ')
    · obtain ⟨g0, g1, g2, g3, g4, g5, g6, g7, g8, g9, g10, g11, g12, g13⟩ := hagree c
      rw [g0, g1, g2, g3, g4, g5, g6, g7, g8, g9, g10, g11, g12, g13]
      refine (Cert.ReferenceIdeal.RefValue.ref_out_eq _ _ _ _ _ _ _ _ _ _ _ _ _ _).trans ?_
      obtain ⟨h0, h3, h4, h5, h6, h7, h8, h9, h10, h11, h12, h13⟩ :=
        Cert.PreFinite.finite_of_pre _ _ _ _ _ _ _ _ _ _ _ _ _ _ (hpre c)
      exact (Cert.SpecFinite.outArr_eq _ _ _ _ _ _ _ _ _ _ _ _ h0 h4 h5 h8 h9 h10 h11 h12 h13 (fun i => h3 _)).symm
    · obtain ⟨g0, g1, g2, g3, g4, g5, g6, g7, g8, g9, g10, g11, g12, g13⟩ := hagree c
      rw [g0, g4, g5, g6, g7]
      exact Cert.ReferenceIdeal.RefValue.ref_rec_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
